-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64x256 : Shape := ⟨4, ![16, 128, 64, 256]⟩
abbrev S256x512 : Shape := ⟨2, ![256, 512]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S16x128x64x256 : S_.BroadcastsInDim S16x128x64x256 (![] : Fin 0 → Fin S16x128x64x256.rank)
  reducesTo_S16x128x64x256_S_d0_1_2_3 : S16x128x64x256.ReducesTo [0, 1, 2, 3] S_
  h_S_ : 0 < S_.numel
  bcast_S_S256x512 : S_.BroadcastsInDim S256x512 (![] : Fin 0 → Fin S256x512.rank)
  reducesTo_S256x512_S_d0_1 : S256x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_arg11 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S256x512 .f32) (main_arg8 : FVec F S1024x512 .f32) (main_arg9 : FVec F S512 .f32) (main_arg10 : FVec F S512x512 .f32) (main_arg11 : FVec F S512 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_v48 main_v49 main_v50

def fn_part1 {F : FTy → Type} [FloatOps F] (main_arg4 : FVec F S256x512 .f32) (main_arg5 : FVec F S256x512 .f32) (main_arg6 : FVec F S256x512 .f32) (main_arg7 : FVec F S256x512 .f32) (main_arg8 : FVec F S1024x512 .f32) (main_arg9 : FVec F S512 .f32) (main_arg10 : FVec F S512x512 .f32) (main_arg11 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x128x64x256 .f32) (main_arg1 : FVec F S16x128x64x256 .f32) (main_arg2 : FVec F S256x512 .f32) (main_arg3 : FVec F S256x512 .f32) (main_arg4 : FVec F S256x512 .f32) (main_arg5 : FVec F S256x512 .f32) (main_arg6 : FVec F S256x512 .f32) (main_arg7 : FVec F S256x512 .f32) (main_arg8 : FVec F S1024x512 .f32) (main_arg9 : FVec F S512 .f32) (main_arg10 : FVec F S512x512 .f32) (main_arg11 : FVec F S512 .f32) : IVec S_ 1 :=
  let main_v0 : FVec F S16x128x64x256 .f32 := Host.absf main_arg0
  let main_cst : FVec F S_ .f32 := constant S_ .f32 0x7F800000#32
  let main_v1 : FVec F S16x128x64x256 .f32 := broadcastInDim S16x128x64x256 ![] bcast_S_S16x128x64x256 main_cst
  let main_v2 : IVec S16x128x64x256 1 := cmpf .olt main_v0 main_v1
  let main_c : IVec S_ 1 := constantI S_ 1 1#1
  let main_v3 : IVec S_ 1 := (fun x v => Host.reduce IntOp.andi x v reducesTo_S16x128x64x256_S_d0_1_2_3 h_S_) main_v2 main_c
  let main_v4 : FVec F S16x128x64x256 .f32 := Host.absf main_arg1
  let main_cst_0 : FVec F S_ .f32 := constant S_ .f32 0x7F800000#32
  let main_v5 : FVec F S16x128x64x256 .f32 := broadcastInDim S16x128x64x256 ![] bcast_S_S16x128x64x256 main_cst_0
  let main_v6 : IVec S16x128x64x256 1 := cmpf .olt main_v4 main_v5
  let main_c_1 : IVec S_ 1 := constantI S_ 1 1#1
  let main_v7 : IVec S_ 1 := (fun x v => Host.reduce IntOp.andi x v reducesTo_S16x128x64x256_S_d0_1_2_3 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_arg9 main_arg10 main_arg11 main_v13 main_v16
-- ==== Kernel.lean ====
abbrev S16x128x64x256 : Shape := ⟨4, ![16, 128, 64, 256]⟩
abbrev S256x512 : Shape := ⟨2, ![256, 512]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S256x1536 : Shape := ⟨2, ![256, 1536]⟩
abbrev S1x512 : Shape := ⟨2, ![1, 512]⟩
abbrev S16x128x64x512 : Shape := ⟨4, ![16, 128, 64, 512]⟩
abbrev S1x16x64x256 : Shape := ⟨4, ![1, 16, 64, 256]⟩
abbrev S1x16x64x512 : Shape := ⟨4, ![1, 16, 64, 512]⟩
abbrev S16x64x256 : Shape := ⟨3, ![16, 64, 256]⟩
abbrev S1024x256 : Shape := ⟨2, ![1024, 256]⟩
abbrev S1024x1536 : Shape := ⟨2, ![1024, 1536]⟩
abbrev S16x64x512 : Shape := ⟨3, ![16, 64, 512]⟩
abbrev S16x64x64 : Shape := ⟨3, ![16, 64, 64]⟩
abbrev S16x64 : Shape := ⟨2, ![16, 64]⟩
abbrev S16x64x1 : Shape := ⟨3, ![16, 64, 1]⟩

abbrev nBuf : Space → Nat
  | .hbm => 32
  | .vmem => 13
  | .smem => 0
  | _ => 0

abbrev bufTy : (tb : Table) → Fin (tcTables nBuf tb) → BufTy
  | .hbm, ⟨0, _⟩ => ⟨S16x128x64x256, .f32⟩
  | .hbm, ⟨1, _⟩ => ⟨S16x128x64x256, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S1024x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S16x128x64x256, .bf16⟩
  | .hbm, ⟨13, _⟩ => ⟨S16x128x64x256, .bf16⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x1536, .f32⟩
  | .hbm, ⟨18, _⟩ => ⟨S256x1536, .bf16⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S256x1536, .f32⟩
  | .hbm, ⟨23, _⟩ => ⟨S256x1536, .bf16⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .bf16⟩
  | .hbm, ⟨28, _⟩ => ⟨S512x512, .bf16⟩
  | .hbm, ⟨29, _⟩ => ⟨S1x512, .f32⟩
  | .hbm, ⟨30, _⟩ => ⟨S1x512, .f32⟩
  | .hbm, ⟨31, _⟩ => ⟨S16x128x64x512, .f32⟩
  | .local _ .vmem, ⟨0, _⟩ => ⟨S1x16x64x256, .bf16⟩
  | .local _ .vmem, ⟨1, _⟩ => ⟨S1x16x64x256, .bf16⟩
  | .local _ .vmem, ⟨2, _⟩ => ⟨S1x16x64x256, .bf16⟩
  | .local _ .vmem, ⟨3, _⟩ => ⟨S1x16x64x256, .bf16⟩
  | .local _ .vmem, ⟨4, _⟩ => ⟨S256x1536, .bf16⟩
  | .local _ .vmem, ⟨5, _⟩ => ⟨S256x1536, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S1x16x64x512, .f32⟩
  | .local _ .vmem, ⟨12, _⟩ => ⟨S1x16x64x512, .f32⟩
  | _, _ => ⟨S16x128x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  bcast_S_S256x512 : S_.BroadcastsInDim S256x512 (![] : Fin 0 → Fin S256x512.rank)
  concatenates_S256x512_S256x512_S256x512_S256x1536_d1 : Shape.Concatenates [S256x512, S256x512, S256x512] S256x1536 1
  slices_S1024x512_S512x512_0_0 : S1024x512.Slices ![0, 0] S512x512
  slices_S1024x512_S512x512_512_0 : S1024x512.Slices ![512, 0] S512x512
  shapeCasts_S512_S1x512 : S512.ShapeCasts S1x512
  inb_S1x16x64x256_S1x16x64x256_0_0_0_0 : ∀ a, (![0, 0, 0, 0] : Fin 4 → Nat) a + S1x16x64x256.size a ≤ S1x16x64x256.size a
  h_S1x16x64x256 : 0 < S1x16x64x256.numel
  shapeCasts_S1x16x64x256_S16x64x256 : S1x16x64x256.ShapeCasts S16x64x256
  shapeCasts_S16x64x256_S1024x256 : S16x64x256.ShapeCasts S1024x256
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  slices_S1024x1536_o0_0_S1024x512 : S1024x1536.Slices ![0, 0] S1024x512
  shapeCasts_S1024x512_S16x64x512 : S1024x512.ShapeCasts S16x64x512
  slices_S1024x1536_o0_512_S1024x512 : S1024x1536.Slices ![0, 512] S1024x512
  slices_S1024x1536_o0_1024_S1024x512 : S1024x1536.Slices ![0, 1024] S1024x512
  reduces_S16x64x64_S16x64 : S16x64x64.Reduces [2] S16x64
  shapeCasts_S16x64_S16x64x1 : S16x64.ShapeCasts S16x64x1
  broadcasts_S16x64x1_S16x64x64 : S16x64x1.Broadcasts S16x64x64
  shapeCasts_S16x64x512_S1024x512 : S16x64x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  shapeCasts_S16x64x512_S1x16x64x512 : S16x64x512.ShapeCasts S1x16x64x512
  dot_S1024x256_S256x1536_S1024x1536_1_0_0_1_n_n_wf : DotDims.WF S1024x256 S256x1536 S1024x1536 [1] [0] [0] [1] [] []
  dot_S16x64x512_S16x64x512_S16x64x64_2_2_1_1_0_0_wf : DotDims.WF S16x64x512 S16x64x512 S16x64x64 [2] [2] [1] [1] [0] [0]
  dot_S16x64x64_S16x64x512_S16x64x512_2_1_1_2_0_0_wf : DotDims.WF S16x64x64 S16x64x512 S16x64x512 [2] [1] [1] [2] [0] [0]
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x256.size a ≤ S16x128x64x256.size a
  hwx0_0 : ∀ i : grid0.Coords, EltTy.bits .bf16 = 32 ∨ (Rect.block (s := S16x128x64x256) S1x16x64x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x64x256.size a ≤ S16x128x64x256.size a
  hwx0_1 : ∀ i : grid0.Coords, EltTy.bits .bf16 = 32 ∨ (Rect.block (s := S16x128x64x256) S1x16x64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1536.size a ≤ S256x1536.size a
  hwx0_2 : ∀ i : grid0.Coords, EltTy.bits .bf16 = 32 ∨ (Rect.block (s := S256x1536) S256x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1536.size a ≤ S256x1536.size a
  hwx0_3 : ∀ i : grid0.Coords, EltTy.bits .bf16 = 32 ∨ (Rect.block (s := S256x1536) S256x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x64x512.size a ≤ S16x128x64x512.size a
  hwx0_9 : ∀ i : grid0.Coords, EltTy.bits .f32 = 32 ∨ (Rect.block (s := S16x128x64x512) S1x16x64x512.size (cc0_transform_9 i) (hinb0_9 i)).WholeWords (EltTy.packing .f32)

variable [Facts₀]

def dot_S1024x256_S256x1536_S1024x1536_1_0_0_1_n_n : DotDims S1024x256 S256x1536 S1024x1536 where
  lhsContracting := [1]
  rhsContracting := [0]
  lhsNonContracting := [0]
  rhsNonContracting := [1]
  lhsBatch := []
  rhsBatch := []
  wf := dot_S1024x256_S256x1536_S1024x1536_1_0_0_1_n_n_wf
def dot_S16x64x512_S16x64x512_S16x64x64_2_2_1_1_0_0 : DotDims S16x64x512 S16x64x512 S16x64x64 where
  lhsContracting := [2]
  rhsContracting := [2]
  lhsNonContracting := [1]
  rhsNonContracting := [1]
  lhsBatch := [0]
  rhsBatch := [0]
  wf := dot_S16x64x512_S16x64x512_S16x64x64_2_2_1_1_0_0_wf
def dot_S16x64x64_S16x64x512_S16x64x512_2_1_1_2_0_0 : DotDims S16x64x64 S16x64x512 S16x64x512 where
  lhsContracting := [2]
  rhsContracting := [1]
  lhsNonContracting := [1]
  rhsNonContracting := [2]
  lhsBatch := [0]
  rhsBatch := [0]
  wf := dot_S16x64x64_S16x64x512_S16x64x512_2_1_1_2_0_0_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1x16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x16x64x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x128x64x256 : Shape := ⟨4, ![16, 128, 64, 256]⟩
abbrev S256x512 : Shape := ⟨2, ![256, 512]⟩
abbrev S1024x512 : Shape := ⟨2, ![1024, 512]⟩
abbrev S512 : Shape := ⟨1, ![512]⟩
abbrev S512x512 : Shape := ⟨2, ![512, 512]⟩
abbrev S16x128x64x512 : Shape := ⟨4, ![16, 128, 64, 512]⟩
abbrev S_ : Shape := ⟨0, ![]⟩
abbrev S16x128x64x64 : Shape := ⟨4, ![16, 128, 64, 64]⟩
abbrev S16x128x64 : Shape := ⟨3, ![16, 128, 64]⟩
abbrev S16x128x64x1 : Shape := ⟨4, ![16, 128, 64, 1]⟩
abbrev S16x128x64x1024 : Shape := ⟨4, ![16, 128, 64, 1024]⟩
abbrev S1x1x1x512 : Shape := ⟨4, ![1, 1, 1, 512]⟩

abbrev nBuf : Space → Nat
  | .hbm => 68
  | .vmem => 0
  | .smem => 0
  | _ => 0

abbrev bufTy : (tb : Table) → Fin (tcTables nBuf tb) → BufTy
  | .hbm, ⟨0, _⟩ => ⟨S16x128x64x256, .f32⟩
  | .hbm, ⟨1, _⟩ => ⟨S16x128x64x256, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S1024x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S16x128x64x512, .f32⟩
  | .hbm, ⟨13, _⟩ => ⟨S_, .f32⟩
  | .hbm, ⟨14, _⟩ => ⟨S16x128x64x512, .f32⟩
  | .hbm, ⟨15, _⟩ => ⟨S16x128x64x512, .f32⟩
  | .hbm, ⟨16, _⟩ => ⟨S16x128x64x512, .f32⟩
  | .hbm, ⟨17, _⟩ => ⟨S16x128x64x512, .f32⟩
  | .hbm, ⟨18, _⟩ => ⟨S16x128x64x512, .f32⟩
  | .hbm, ⟨19, _⟩ => ⟨S_, .f32⟩
  | .hbm, ⟨20, _⟩ => ⟨S16x128x64x512, .f32⟩
  | .hbm, ⟨21, _⟩ => ⟨S16x128x64x512, .f32⟩
  | .hbm, ⟨22, _⟩ => ⟨S16x128x64x512, .f32⟩
  | .hbm, ⟨23, _⟩ => ⟨S16x128x64x512, .f32⟩
  | .hbm, ⟨24, _⟩ => ⟨S16x128x64x64, .f32⟩
  | .hbm, ⟨25, _⟩ => ⟨S_, .f32⟩
  | .hbm, ⟨26, _⟩ => ⟨S16x128x64, .f32⟩
  | .hbm, ⟨27, _⟩ => ⟨S_, .f32⟩
  | .hbm, ⟨28, _⟩ => ⟨S16x128x64, .f32⟩
  | .hbm, ⟨29, _⟩ => ⟨S16x128x64, .f32⟩
  | .hbm, ⟨30, _⟩ => ⟨S16x128x64x1, .f32⟩
  | .hbm, ⟨31, _⟩ => ⟨S16x128x64x64, .f32⟩
  | .hbm, ⟨32, _⟩ => ⟨S16x128x64x64, .f32⟩
  | .hbm, ⟨33, _⟩ => ⟨S16x128x64x64, .f32⟩
  | .hbm, ⟨34, _⟩ => ⟨S_, .f32⟩
  | .hbm, ⟨35, _⟩ => ⟨S16x128x64, .f32⟩
  | .hbm, ⟨36, _⟩ => ⟨S16x128x64x1, .f32⟩
  | .hbm, ⟨37, _⟩ => ⟨S16x128x64x64, .f32⟩
  | .hbm, ⟨38, _⟩ => ⟨S16x128x64x64, .f32⟩
  | .hbm, ⟨39, _⟩ => ⟨S16x128x64x512, .f32⟩
  | .hbm, ⟨40, _⟩ => ⟨S16x128x64x64, .f32⟩
  | .hbm, ⟨41, _⟩ => ⟨S_, .f32⟩
  | .hbm, ⟨42, _⟩ => ⟨S16x128x64, .f32⟩
  | .hbm, ⟨43, _⟩ => ⟨S_, .f32⟩
  | .hbm, ⟨44, _⟩ => ⟨S16x128x64, .f32⟩
  | .hbm, ⟨45, _⟩ => ⟨S16x128x64, .f32⟩
  | .hbm, ⟨46, _⟩ => ⟨S16x128x64x1, .f32⟩
  | .hbm, ⟨47, _⟩ => ⟨S16x128x64x64, .f32⟩
  | .hbm, ⟨48, _⟩ => ⟨S16x128x64x64, .f32⟩
  | .hbm, ⟨49, _⟩ => ⟨S16x128x64x64, .f32⟩
  | .hbm, ⟨50, _⟩ => ⟨S_, .f32⟩
  | .hbm, ⟨51, _⟩ => ⟨S16x128x64, .f32⟩
  | .hbm, ⟨52, _⟩ => ⟨S16x128x64x1, .f32⟩
  | .hbm, ⟨53, _⟩ => ⟨S16x128x64x64, .f32⟩
  | .hbm, ⟨54, _⟩ => ⟨S16x128x64x64, .f32⟩
  | .hbm, ⟨55, _⟩ => ⟨S16x128x64x512, .f32⟩
  | .hbm, ⟨56, _⟩ => ⟨S16x128x64x1024, .f32⟩
  | .hbm, ⟨57, _⟩ => ⟨S16x128x64x512, .f32⟩
  | .hbm, ⟨58, _⟩ => ⟨S1x1x1x512, .f32⟩
  | .hbm, ⟨59, _⟩ => ⟨S16x128x64x512, .f32⟩
  | .hbm, ⟨60, _⟩ => ⟨S16x128x64x512, .f32⟩
  | .hbm, ⟨61, _⟩ => ⟨S_, .f32⟩
  | .hbm, ⟨62, _⟩ => ⟨S16x128x64x512, .f32⟩
  | .hbm, ⟨63, _⟩ => ⟨S16x128x64x512, .f32⟩
  | .hbm, ⟨64, _⟩ => ⟨S16x128x64x512, .f32⟩
  | .hbm, ⟨65, _⟩ => ⟨S1x1x1x512, .f32⟩
  | .hbm, ⟨66, _⟩ => ⟨S16x128x64x512, .f32⟩
  | .hbm, ⟨67, _⟩ => ⟨S16x128x64x512, .f32⟩
  | _, _ => ⟨S16x128x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_cst : Ref sig .tc := ⟨.hbm, 61, rfl⟩
abbrev main_call0_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  bcast_S_S16x128x64x512 : S_.BroadcastsInDim S16x128x64x512 (![] : Fin 0 → Fin S16x128x64x512.rank)
  reducesTo_S16x128x64x64_S16x128x64_d3 : S16x128x64x64.ReducesTo [3] S16x128x64
  h_S_ : 0 < S_.numel
  bcast_S_S16x128x64 : S_.BroadcastsInDim S16x128x64 (![] : Fin 0 → Fin S16x128x64.rank)
  bcast_S16x128x64_S16x128x64x1_0_1_2 : S16x128x64.BroadcastsInDim S16x128x64x1 (![0, 1, 2] : Fin 3 → Fin S16x128x64x1.rank)
  bcast_S16x128x64x1_S16x128x64x64_0_1_2_3 : S16x128x64x1.BroadcastsInDim S16x128x64x64 (![0, 1, 2, 3] : Fin 4 → Fin S16x128x64x64.rank)
  concatenates_S16x128x64x512_S16x128x64x512_S16x128x64x1024_d3 : Shape.Concatenates [S16x128x64x512, S16x128x64x512] S16x128x64x1024 3
  bcast_S512_S1x1x1x512_3 : S512.BroadcastsInDim S1x1x1x512 (![3] : Fin 1 → Fin S1x1x1x512.rank)
  bcast_S1x1x1x512_S16x128x64x512_0_1_2_3 : S1x1x1x512.BroadcastsInDim S16x128x64x512 (![0, 1, 2, 3] : Fin 4 → Fin S16x128x64x512.rank)
  dot_S16x128x64x256_S256x512_S16x128x64x512_3_0_012_1_n_n_wf : DotDims.WF S16x128x64x256 S256x512 S16x128x64x512 [3] [0] [0, 1, 2] [1] [] []
  dot_S16x128x64x512_S16x128x64x512_S16x128x64x64_3_3_2_2_01_01_wf : DotDims.WF S16x128x64x512 S16x128x64x512 S16x128x64x64 [3] [3] [2] [2] [0, 1] [0, 1]
  dot_S16x128x64x64_S16x128x64x512_S16x128x64x512_3_2_2_3_01_01_wf : DotDims.WF S16x128x64x64 S16x128x64x512 S16x128x64x512 [3] [2] [2] [3] [0, 1] [0, 1]
  dot_S16x128x64x1024_S1024x512_S16x128x64x512_3_0_012_1_n_n_wf : DotDims.WF S16x128x64x1024 S1024x512 S16x128x64x512 [3] [0] [0, 1, 2] [1] [] []
  dot_S16x128x64x512_S512x512_S16x128x64x512_3_0_012_1_n_n_wf : DotDims.WF S16x128x64x512 S512x512 S16x128x64x512 [3] [0] [0, 1, 2] [1] [] []

variable [Facts₀]

def dot_S16x128x64x256_S256x512_S16x128x64x512_3_0_012_1_n_n : DotDims S16x128x64x256 S256x512 S16x128x64x512 where
  lhsContracting := [3]
  rhsContracting := [0]
  lhsNonContracting := [0, 1, 2]
  rhsNonContracting := [1]
  lhsBatch := []
  rhsBatch := []
  wf := dot_S16x128x64x256_S256x512_S16x128x64x512_3_0_012_1_n_n_wf
def dot_S16x128x64x512_S16x128x64x512_S16x128x64x64_3_3_2_2_01_01 : DotDims S16x128x64x512 S16x128x64x512 S16x128x64x64 where
  lhsContracting := [3]
  rhsContracting := [3]
  lhsNonContracting := [2]
  rhsNonContracting := [2]
  lhsBatch := [0, 1]
  rhsBatch := [0, 1]
  wf := dot_S16x128x64x512_S16x128x64x512_S16x128x64x64_3_3_2_2_01_01_wf
def dot_S16x128x64x64_S16x128x64x512_S16x128x64x512_3_2_2_3_01_01 : DotDims S16x128x64x64 S16x128x64x512 S16x128x64x512 where
  lhsContracting := [3]
  rhsContracting := [2]
  lhsNonContracting := [2]
  rhsNonContracting := [3]
  lhsBatch := [0, 1]
  rhsBatch := [0, 1]
  wf := dot_S16x128x64x64_S16x128x64x512_S16x128x64x512_3_2_2_3_01_01_wf
def dot_S16x128x64x1024_S1024x512_S16x128x64x512_3_0_012_1_n_n : DotDims S16x128x64x1024 S1024x512 S16x128x64x512 where
  lhsContracting := [3]
  rhsContracting := [0]
  lhsNonContracting := [0, 1, 2]
  rhsNonContracting := [1]
  lhsBatch := []
  rhsBatch := []
  wf := dot_S16x128x64x1024_S1024x512_S16x128x64x512_3_0_012_1_n_n_wf
def dot_S16x128x64x512_S512x512_S16x128x64x512_3_0_012_1_n_n : DotDims S16x128x64x512 S512x512 S16x128x64x512 where
  lhsContracting := [3]
  rhsContracting := [0]
  lhsNonContracting := [0, 1, 2]
  rhsNonContracting := [1]
  lhsBatch := []
  rhsBatch := []
  wf := dot_S16x128x64x512_S512x512_S16x128x64x512_3_0_012_1_n_n_wf

class Facts : Prop extends Facts₀ where

variable [Facts]
-- ==== Proof.FrameKernel.lean ====
/-
  The frame of the program: every weakly fair execution terminates without a fault and leaves the twelve argument arrays
  as they were launched.

  The program is nineteen host operations (two changes of float format of the token arrays, the query weights times the
  scale word, two joins of three weight matrices side by side, two row windows of the first feed-forward matrix, three
  more changes of format, two bias vectors re-laid as rows) followed by ONE region over a 16 x 8 grid. None of the host
  operations writes an argument array, so the region finds each as launched (`V_main_argK`). At grid point t the region
  stages one 1 x 16 x 64 x 256 block of each token array, the five weight matrices and the two bias rows whole, and one
  1 x 16 x 64 x 512 block of the result. The body loads the nine input blocks whole, computes, and stores the result
  block whole (it also loads the result buffer once and drops the value). So after the body each input buffer holds
  its block as before, and the result buffer holds `out9` of the nine input blocks: the one stored piece, which covers
  the buffer. With this proof data the library's launch theorem gives the run (`run_main`), whose post has every array
  no window writes at its region-entry contents; the argument arrays are among those, which is the frame.
-/
import proofs.«168204_j71880572666182_2_alg».proof.Proof.Gen.Kernel.Launch
import proofs.«168204_j71880572666182_2_alg».proof.Proof.Gen.Kernel.Skeleton
import proofs.«168204_j71880572666182_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the nineteen host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index has
    not moved), for any proof data whose array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (unfetched, the block index has
    not moved), for any proof data whose array is the region-entry one and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (unfetched, the block index has
    not moved), for any proof data whose array is the region-entry one and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (unfetched, the block index has
    not moved), for any proof data whose array is the region-entry one and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (unfetched, the block index has
    not moved), for any proof data whose array is the region-entry one and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (unfetched, the block index has
    not moved), for any proof data whose array is the region-entry one and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (unfetched, the block index has
    not moved), for any proof data whose array is the region-entry one and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (unfetched, the block index has
    not moved), for any proof data whose array is the region-entry one and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (unfetched, the block index has
    not moved), for any proof data whose array is the region-entry one and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- No argument array is a window's array, so a run whose post has every array outside the windows at its region-entry
    contents leaves the arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses: every load and the one store take a whole buffer -/

abbrev r_x : Rect S1x16x64x256 := Rect.unit (s := S1x16x64x256) ![0, 0, 0, 0] S1x16x64x256.size inb_S1x16x64x256_S1x16x64x256_0_0_0_0
abbrev r_w : Rect S256x1536 := Rect.unit (s := S256x1536) ![0, 0] S256x1536.size inb_S256x1536_S256x1536_0_0
abbrev r_s : Rect S512x512 := Rect.unit (s := S512x512) ![0, 0] S512x512.size inb_S512x512_S512x512_0_0
abbrev r_b : Rect S1x512 := Rect.unit (s := S1x512) ![0, 0] S1x512.size inb_S1x512_S1x512_0_0
abbrev r_o : Rect S1x16x64x512 := Rect.unit (s := S1x16x64x512) ![0, 0, 0, 0] S1x16x64x512.size inb_S1x16x64x512_S1x16x64x512_0_0_0_0

/-! ## What the body leaves in the result window's buffer -/

/-- The result buffer after the body, from the nine input blocks: its one store, of the body's value of the loaded
    blocks, through the whole-buffer rectangle. -/
def out9 (x0 : Vec F S1x16x64x256 .bf16) (x1 : Vec F S1x16x64x256 .bf16) (x2 : Vec F S256x1536 .bf16) (x3 : Vec F S256x1536 .bf16) (x4 : Vec F S512x512 .bf16) (x5 : Vec F S512x512 .bf16) (x6 : Vec F S1x512 .f32) (x7 : Vec F S512x512 .bf16) (x8 : Vec F S1x512 .f32) : Vec F S1x16x64x512 .f32 :=
  View.canon [⟨r_o, k0_pay1 (k0_pay9 (k0_pay3 (View.ld x0 r_x) (View.ld x2 r_w)) (k0_pay4 (View.ld x0 r_x) (View.ld x2 r_w)) (k0_pay6 (View.ld x1 r_x) (View.ld x3 r_w)) (k0_pay7 (View.ld x1 r_x) (View.ld x3 r_w)) (k0_pay8 (View.ld x0 r_x) (View.ld x1 r_x) (View.ld x2 r_w) (View.ld x3 r_w)) (View.ld x4 r_s) (View.ld x5 r_s) (View.ld x6 r_b) (View.ld x7 r_s) (View.ld x8 r_b))⟩]

/-- The one store covers the buffer. -/
theorem cover9 (p0 : Vec F S1x16x64x512 .f32) (y : S1x16x64x512.Idx) :
    ∃ pc ∈ ([⟨r_o, p0⟩] : List (View.Piece (Elt F) S1x16x64x512 .f32)), y ∈ pc.1.set :=
  View.cover_of_tiled [⟨r_o, p0⟩] S1x16x64x512.size (by rfl) y

/-! ## The body's triple -/

set_option maxHeartbeats 4000000 in
/-- The body on whole staging buffers, the inputs' at contents `xW` and the result's at anything, runs to the continuation
    holding the inputs' as they were and the result's at `out9` of the inputs'. -/
theorem sound_kernel (c : Dev nD) (E : Set ℕ) (i : grid0.Coords) (arg2 : Memref sig .tc .vmem S1x16x64x256 .bf16) (harg2 : arg2.IsWhole) (arg3 : Memref sig .tc .vmem S1x16x64x256 .bf16) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x16x64x512 .f32) (harg11 : arg11.IsWhole)
    (x0 : Vec F S1x16x64x256 .bf16) (x1 : Vec F S1x16x64x256 .bf16) (x2 : Vec F S256x1536 .bf16) (x3 : Vec F S256x1536 .bf16) (x4 : Vec F S512x512 .bf16) (x5 : Vec F S512x512 .bf16) (x6 : Vec F S1x512 .f32) (x7 : Vec F S512x512 .bf16) (x8 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out9 x0 x1 x2 x3 x4 x5 x6 x7 x8)) -∗ K ⟨⟩))
      ⊢ wp frame (wpE (defs₀ (F := F)) Variants.none c none) E (cc0__interact_kernel i arg2 harg2 arg3 harg3 arg4 harg4 arg5 harg5 arg6 harg6 arg7 harg7 arg8 harg8 arg9 harg9 arg10 harg10 arg11 harg11) K := by
  simp only [cc0__interact_kernel_eq_skeleton]; unfold cc0__interact_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9 _)

/-! ## The proof data -/

/-- The proof data of the one pipeline on core `c`: the arrays as the region finds them; after the body at point `t` each
    input buffer at its block and the result buffer at `out9` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.Kernel.Frame

end
-- ==== Proof.FrameKernelIdeal.lean ====
/-
  The frame of the program: every weakly fair execution terminates without a fault and leaves the twelve argument arrays
  as they were launched.

  The program is nineteen host operations (two changes of float format of the token arrays, the query weights times the
  scale word, two joins of three weight matrices side by side, two row windows of the first feed-forward matrix, three
  more changes of format, two bias vectors re-laid as rows) followed by ONE region over a 16 x 8 grid. None of the host
  operations writes an argument array, so the region finds each as launched (`V_main_argK`). At grid point t the region
  stages one 1 x 16 x 64 x 256 block of each token array, the five weight matrices and the two bias rows whole, and one
  1 x 16 x 64 x 512 block of the result. The body loads the nine input blocks whole, computes, and stores the result
  block whole (it also loads the result buffer once and drops the value). So after the body each input buffer holds
  its block as before, and the result buffer holds `out9` of the nine input blocks: the one stored piece, which covers
  the buffer. With this proof data the library's launch theorem gives the run (`run_main`), whose post has every array
  no window writes at its region-entry contents; the argument arrays are among those, which is the frame.
-/
import proofs.«168204_j71880572666182_2_alg».proof.Proof.Gen.KernelIdeal.Launch
import proofs.«168204_j71880572666182_2_alg».proof.Proof.Gen.KernelIdeal.Skeleton
import proofs.«168204_j71880572666182_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the nineteen host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index has
    not moved), for any proof data whose array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (unfetched, the block index has
    not moved), for any proof data whose array is the region-entry one and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (unfetched, the block index has
    not moved), for any proof data whose array is the region-entry one and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (unfetched, the block index has
    not moved), for any proof data whose array is the region-entry one and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (unfetched, the block index has
    not moved), for any proof data whose array is the region-entry one and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (unfetched, the block index has
    not moved), for any proof data whose array is the region-entry one and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (unfetched, the block index has
    not moved), for any proof data whose array is the region-entry one and whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (unfetched, the block index has
    not moved), for any proof data whose array is the region-entry one and whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (unfetched, the block index has
    not moved), for any proof data whose array is the region-entry one and whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- No argument array is a window's array, so a run whose post has every array outside the windows at its region-entry
    contents leaves the arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses: every load and the one store take a whole buffer -/

abbrev r_x : Rect S1x16x64x256 := Rect.unit (s := S1x16x64x256) ![0, 0, 0, 0] S1x16x64x256.size inb_S1x16x64x256_S1x16x64x256_0_0_0_0
abbrev r_w : Rect S256x1536 := Rect.unit (s := S256x1536) ![0, 0] S256x1536.size inb_S256x1536_S256x1536_0_0
abbrev r_s : Rect S512x512 := Rect.unit (s := S512x512) ![0, 0] S512x512.size inb_S512x512_S512x512_0_0
abbrev r_b : Rect S1x512 := Rect.unit (s := S1x512) ![0, 0] S1x512.size inb_S1x512_S1x512_0_0
abbrev r_o : Rect S1x16x64x512 := Rect.unit (s := S1x16x64x512) ![0, 0, 0, 0] S1x16x64x512.size inb_S1x16x64x512_S1x16x64x512_0_0_0_0

/-! ## What the body leaves in the result window's buffer -/

/-- The result buffer after the body, from the nine input blocks: its one store, of the body's value of the loaded
    blocks, through the whole-buffer rectangle. -/
def out9 (x0 : Vec F S1x16x64x256 .bf16) (x1 : Vec F S1x16x64x256 .bf16) (x2 : Vec F S256x1536 .bf16) (x3 : Vec F S256x1536 .bf16) (x4 : Vec F S512x512 .bf16) (x5 : Vec F S512x512 .bf16) (x6 : Vec F S1x512 .f32) (x7 : Vec F S512x512 .bf16) (x8 : Vec F S1x512 .f32) : Vec F S1x16x64x512 .f32 :=
  View.canon [⟨r_o, k0_pay1 (k0_pay9 (k0_pay3 (View.ld x0 r_x) (View.ld x2 r_w)) (k0_pay4 (View.ld x0 r_x) (View.ld x2 r_w)) (k0_pay6 (View.ld x1 r_x) (View.ld x3 r_w)) (k0_pay7 (View.ld x1 r_x) (View.ld x3 r_w)) (k0_pay8 (View.ld x0 r_x) (View.ld x1 r_x) (View.ld x2 r_w) (View.ld x3 r_w)) (View.ld x4 r_s) (View.ld x5 r_s) (View.ld x6 r_b) (View.ld x7 r_s) (View.ld x8 r_b))⟩]

/-- The one store covers the buffer. -/
theorem cover9 (p0 : Vec F S1x16x64x512 .f32) (y : S1x16x64x512.Idx) :
    ∃ pc ∈ ([⟨r_o, p0⟩] : List (View.Piece (Elt F) S1x16x64x512 .f32)), y ∈ pc.1.set :=
  View.cover_of_tiled [⟨r_o, p0⟩] S1x16x64x512.size (by rfl) y

/-! ## The body's triple -/

set_option maxHeartbeats 4000000 in
/-- The body on whole staging buffers, the inputs' at contents `xW` and the result's at anything, runs to the continuation
    holding the inputs' as they were and the result's at `out9` of the inputs'. -/
theorem sound_kernel (c : Dev nD) (E : Set ℕ) (i : grid0.Coords) (arg2 : Memref sig .tc .vmem S1x16x64x256 .bf16) (harg2 : arg2.IsWhole) (arg3 : Memref sig .tc .vmem S1x16x64x256 .bf16) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x16x64x512 .f32) (harg11 : arg11.IsWhole)
    (x0 : Vec F S1x16x64x256 .bf16) (x1 : Vec F S1x16x64x256 .bf16) (x2 : Vec F S256x1536 .bf16) (x3 : Vec F S256x1536 .bf16) (x4 : Vec F S512x512 .bf16) (x5 : Vec F S512x512 .bf16) (x6 : Vec F S1x512 .f32) (x7 : Vec F S512x512 .bf16) (x8 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out9 x0 x1 x2 x3 x4 x5 x6 x7 x8)) -∗ K ⟨⟩))
      ⊢ wp frame (wpE (defs₀ (F := F)) Variants.none c none) E (cc0__interact_kernel i arg2 harg2 arg3 harg3 arg4 harg4 arg5 harg5 arg6 harg6 arg7 harg7 arg8 harg8 arg9 harg9 arg10 harg10 arg11 harg11) K := by
  simp only [cc0__interact_kernel_eq_skeleton]; unfold cc0__interact_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9 _)

/-! ## The proof data -/

/-- The proof data of the one pipeline on core `c`: the arrays as the region finds them; after the body at point `t` each
    input buffer at its block and the result buffer at `out9` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.KernelIdeal.Frame

end
-- ==== Proof.Spec.lean ====
/-
  The mathematics of one token group of the two-stream cross-attention block, on the extended reals.

  A token group is 64 rows. Stream 1 has rows X1 (64 x 256), stream 2 rows X2. Each stream is projected to queries,
  keys and values (64 x 512 each) by three weight matrices; the queries are scaled by 1/16 (the word 0x3D800000).
  Stream 1's queries attend over stream 2's keys and aggregate stream 1's values; stream 2's queries attend over
  stream 1's keys and aggregate stream 2's values. The two aggregates, side by side, go through an affine map into
  512 hidden units with a rectifier, and a second affine map gives the group's 64 x 512 result.

  Two spellings of the scaled queries occur: the weights scaled before the product, `X · (Wq * s)`, and the product
  scaled afterwards, `(X · Wq) * s`. They agree on all extended reals because `s` is a nonnegative real number:
  multiplication by such a number distributes over every sum of extended reals (`proj_scaleW`). Nothing else in the
  block is rearranged, so no finiteness of the data is used anywhere.
-/
import Idealize.ShloMosaic.PureOps.Ideal
import Idealize.ShloMosaic.Lib.ValueIdx

noncomputable section

namespace Cert.Interact

open Idealize.ShloMosaic Idealize.ShloMosaic.ValueIdx

/-- The query scale: the f32 word of 1/16. -/
abbrev scale : EReal := Ideal.ofBits .f32 0x3D800000#32
/-- The f32 word of zero: the start of a sum of exponentials and the rectifier's floor. -/
abbrev zero : EReal := Ideal.ofBits .f32 0x00000000#32

/-- A matrix of extended reals. -/
abbrev Mat (a b : Nat) := Fin a → Fin b → EReal

/-- Rows times a weight matrix. -/
def proj {N D H : Nat} (X : Mat N D) (W : Mat D H) : Mat N H := fun n h => ∑ d, X n d * W d h
/-- Every entry times the query scale. -/
def scaled {A B : Nat} (M : Mat A B) : Mat A B := fun a b => M a b * scale
/-- Query rows against key rows: the attention scores. -/
def scores {N M H : Nat} (Q : Mat N H) (K : Mat M H) : Mat N M := fun n m => ∑ h, Q n h * K m h
/-- The largest score of a row, folded from minus infinity. -/
def rowMax {N M : Nat} (S : Mat N M) (n : Fin N) : EReal := Finset.univ.fold max ⊥ (fun m => S n m)
/-- The softmax of each row, shifted by the row's maximum. -/
def soft {N M : Nat} (S : Mat N M) : Mat N M := fun n m =>
  Ideal.div (Ideal.exp (S n m - rowMax S n)) (zero + ∑ m', Ideal.exp (S n m' - rowMax S n))
/-- Attention weights times value rows. -/
def mix {N M H : Nat} (P : Mat N M) (V : Mat M H) : Mat N H := fun n h => ∑ m, P n m * V m h
/-- One cross attention. -/
def attend {N M H : Nat} (Q : Mat N H) (K V : Mat M H) : Mat N H := mix (soft (scores Q K)) V
/-- The hidden layer: the two aggregates through the two halves of the first weight matrix, a bias, a rectifier. -/
def hidden {N H J : Nat} (A1 A2 : Mat N H) (Wa Wb : Mat H J) (b : Fin J → EReal) : Mat N J := fun n j =>
  max (((∑ f, A1 n f * Wa f j) + (∑ f, A2 n f * Wb f j)) + b j) zero
/-- An affine map. -/
def affine {N J K : Nat} (Hd : Mat N J) (W : Mat J K) (b : Fin K → EReal) : Mat N K := fun n k =>
  (∑ j, Hd n j * W j k) + b k

/-- The upper 512 rows of a 1024-row matrix. -/
def top (W : Mat 1024 512) : Mat 512 512 := fun f j => W ⟨f.val, by omega⟩ j
/-- The lower 512 rows of a 1024-row matrix. -/
def bottom (W : Mat 1024 512) : Mat 512 512 := fun f j => W ⟨512 + f.val, by omega⟩ j

/-- The group's result from its six projections. -/
def fromProjections (Q1 K1 V1 Q2 K2 V2 : Mat 64 512) (Wa Wb : Mat 512 512) (b1 : Fin 512 → EReal) (W2 : Mat 512 512)
    (b2 : Fin 512 → EReal) : Mat 64 512 :=
  affine (hidden (attend Q1 K2 V1) (attend Q2 K1 V2) Wa Wb b1) W2 b2

/-- The group's result with the query weights scaled before the product. -/
def groupW (X1 X2 : Mat 64 256) (Wq1 Wk1 Wv1 Wq2 Wk2 Wv2 : Mat 256 512) (W1 : Mat 1024 512) (b1 : Fin 512 → EReal)
    (W2 : Mat 512 512) (b2 : Fin 512 → EReal) : Mat 64 512 :=
  fromProjections (proj X1 (scaled Wq1)) (proj X1 Wk1) (proj X1 Wv1) (proj X2 (scaled Wq2)) (proj X2 Wk2) (proj X2 Wv2)
    (top W1) (bottom W1) b1 W2 b2

/-- The group's result with the query products scaled afterwards. -/
def groupQ (X1 X2 : Mat 64 256) (Wq1 Wk1 Wv1 Wq2 Wk2 Wv2 : Mat 256 512) (W1 : Mat 1024 512) (b1 : Fin 512 → EReal)
    (W2 : Mat 512 512) (b2 : Fin 512 → EReal) : Mat 64 512 :=
  fromProjections (scaled (proj X1 Wq1)) (proj X1 Wk1) (proj X1 Wv1) (scaled (proj X2 Wq2)) (proj X2 Wk2) (proj X2 Wv2)
    (top W1) (bottom W1) b1 W2 b2

/-- The word 0x3D800000 is the real number 1/16. -/
theorem scale_eq : scale = ((1 / 16 : ℝ) : EReal) := by
  simp [scale, Ideal.ofBits, Ideal.ieee, -EReal.coe_mul]; norm_num

theorem scale_nonneg : (0 : EReal) ≤ scale := by
  rw [scale_eq]; exact_mod_cast (by norm_num : (0 : ℝ) ≤ 1 / 16)

theorem scale_ne_top : scale ≠ ⊤ := by
  rw [scale_eq]; exact EReal.coe_ne_top _

/-- A nonnegative real factor moves out of any finite sum of extended reals. -/
theorem sum_mul_scale {ι : Type} (s : Finset ι) (f : ι → EReal) : (∑ i ∈ s, f i * scale) = (∑ i ∈ s, f i) * scale := by
  classical
  induction s using Finset.induction_on with
  | empty => simp
  | insert a s ha ih =>
    rw [Finset.sum_insert ha, Finset.sum_insert ha, ih,
      EReal.right_distrib_of_nonneg_of_ne_top scale_nonneg scale_ne_top]

/-- Scaling the weights before the product is scaling the product. -/
theorem proj_scaleW {N D H : Nat} (X : Mat N D) (W : Mat D H) : proj X (scaled W) = scaled (proj X W) := by
  funext n h
  unfold proj scaled
  rw [← sum_mul_scale]
  exact Finset.sum_congr rfl fun d _ => (mul_assoc _ _ _).symm

/-- The two spellings of the block agree. -/
theorem groupW_eq_groupQ (X1 X2 : Mat 64 256) (Wq1 Wk1 Wv1 Wq2 Wk2 Wv2 : Mat 256 512) (W1 : Mat 1024 512)
    (b1 : Fin 512 → EReal) (W2 : Mat 512 512) (b2 : Fin 512 → EReal) :
    groupW X1 X2 Wq1 Wk1 Wv1 Wq2 Wk2 Wv2 W1 b1 W2 b2 = groupQ X1 X2 Wq1 Wk1 Wv1 Wq2 Wk2 Wv2 W1 b1 W2 b2 := by
  unfold groupW groupQ
  rw [proj_scaleW, proj_scaleW]

/-! ## Arrays read as matrices -/

/-- Token group `(b, t)` of a 16 x 128 x 64 x D array: its 64 rows. -/
def group {D : Nat} (x : (⟨4, ![16, 128, 64, D]⟩ : Shape).Idx → EReal) (b : Fin 16) (t : Fin 128) : Mat 64 D :=
  fun n d => x (ix4 b t n d)
/-- Token group `tl` of a 1 x 16 x 64 x D block: its 64 rows. -/
def blockGroup {D : Nat} (x : (⟨4, ![1, 16, 64, D]⟩ : Shape).Idx → EReal) (tl : Fin 16) : Mat 64 D :=
  fun n d => x (ix4 0 tl n d)
/-- A rank-2 array as a matrix. -/
def mat {A B : Nat} (w : (⟨2, ![A, B]⟩ : Shape).Idx → EReal) : Mat A B := fun a b => w (ix2 a b)
/-- A rank-1 array as a family. -/
def vec {A : Nat} (v : (⟨1, ![A]⟩ : Shape).Idx → EReal) : Fin A → EReal := fun a => v (ix1 a)
/-- The one row of a 1 x A array. -/
def row {A : Nat} (v : (⟨2, ![1, A]⟩ : Shape).Idx → EReal) : Fin A → EReal := fun a => v (ix2 0 a)
/-- The 512 columns of a 256 x 1536 array that start at column `o`. -/
def cols (o : Nat) (ho : o + 512 ≤ 1536) (w : (⟨2, ![256, 1536]⟩ : Shape).Idx → EReal) : Mat 256 512 :=
  fun d h => w (ix2 d ⟨o + h.val, by omega⟩)

/-- The whole result array, query weights scaled before the product: entry `(b, t, n, k)` is entry `(n, k)` of token
    group `(b, t)`'s result. -/
def wholeW (a0 a1 : (⟨4, ![16, 128, 64, 256]⟩ : Shape).Idx → EReal)
    (a2 a3 a4 a5 a6 a7 : (⟨2, ![256, 512]⟩ : Shape).Idx → EReal) (a8 : (⟨2, ![1024, 512]⟩ : Shape).Idx → EReal)
    (a9 : (⟨1, ![512]⟩ : Shape).Idx → EReal) (a10 : (⟨2, ![512, 512]⟩ : Shape).Idx → EReal)
    (a11 : (⟨1, ![512]⟩ : Shape).Idx → EReal) : (⟨4, ![16, 128, 64, 512]⟩ : Shape).Idx → EReal :=
  fun i => groupW (group a0 (i 0) (i 1)) (group a1 (i 0) (i 1)) (mat a2) (mat a3) (mat a4) (mat a5) (mat a6) (mat a7)
    (mat a8) (vec a9) (mat a10) (vec a11) (i 2) (i 3)

/-- The whole result array, query products scaled afterwards. -/
def wholeQ (a0 a1 : (⟨4, ![16, 128, 64, 256]⟩ : Shape).Idx → EReal)
    (a2 a3 a4 a5 a6 a7 : (⟨2, ![256, 512]⟩ : Shape).Idx → EReal) (a8 : (⟨2, ![1024, 512]⟩ : Shape).Idx → EReal)
    (a9 : (⟨1, ![512]⟩ : Shape).Idx → EReal) (a10 : (⟨2, ![512, 512]⟩ : Shape).Idx → EReal)
    (a11 : (⟨1, ![512]⟩ : Shape).Idx → EReal) : (⟨4, ![16, 128, 64, 512]⟩ : Shape).Idx → EReal :=
  fun i => groupQ (group a0 (i 0) (i 1)) (group a1 (i 0) (i 1)) (mat a2) (mat a3) (mat a4) (mat a5) (mat a6) (mat a7)
    (mat a8) (vec a9) (mat a10) (vec a11) (i 2) (i 3)

theorem wholeW_eq_wholeQ (a0 a1 : (⟨4, ![16, 128, 64, 256]⟩ : Shape).Idx → EReal)
    (a2 a3 a4 a5 a6 a7 : (⟨2, ![256, 512]⟩ : Shape).Idx → EReal) (a8 : (⟨2, ![1024, 512]⟩ : Shape).Idx → EReal)
    (a9 : (⟨1, ![512]⟩ : Shape).Idx → EReal) (a10 : (⟨2, ![512, 512]⟩ : Shape).Idx → EReal)
    (a11 : (⟨1, ![512]⟩ : Shape).Idx → EReal) :
    wholeW a0 a1 a2 a3 a4 a5 a6 a7 a8 a9 a10 a11 = wholeQ a0 a1 a2 a3 a4 a5 a6 a7 a8 a9 a10 a11 := by
  funext i
  unfold wholeW wholeQ
  rw [groupW_eq_groupQ]

theorem wholeW_apply (a0 a1 : (⟨4, ![16, 128, 64, 256]⟩ : Shape).Idx → EReal)
    (a2 a3 a4 a5 a6 a7 : (⟨2, ![256, 512]⟩ : Shape).Idx → EReal) (a8 : (⟨2, ![1024, 512]⟩ : Shape).Idx → EReal)
    (a9 : (⟨1, ![512]⟩ : Shape).Idx → EReal) (a10 : (⟨2, ![512, 512]⟩ : Shape).Idx → EReal)
    (a11 : (⟨1, ![512]⟩ : Shape).Idx → EReal) (b : Fin 16) (t : Fin 128) (n : Fin 64) (k : Fin 512) :
    wholeW a0 a1 a2 a3 a4 a5 a6 a7 a8 a9 a10 a11 (ix4 b t n k)
      = groupW (group a0 b t) (group a1 b t) (mat a2) (mat a3) (mat a4) (mat a5) (mat a6) (mat a7)
          (mat a8) (vec a9) (mat a10) (vec a11) n k := rfl

theorem wholeQ_apply (a0 a1 : (⟨4, ![16, 128, 64, 256]⟩ : Shape).Idx → EReal)
    (a2 a3 a4 a5 a6 a7 : (⟨2, ![256, 512]⟩ : Shape).Idx → EReal) (a8 : (⟨2, ![1024, 512]⟩ : Shape).Idx → EReal)
    (a9 : (⟨1, ![512]⟩ : Shape).Idx → EReal) (a10 : (⟨2, ![512, 512]⟩ : Shape).Idx → EReal)
    (a11 : (⟨1, ![512]⟩ : Shape).Idx → EReal) (b : Fin 16) (t : Fin 128) (n : Fin 64) (k : Fin 512) :
    wholeQ a0 a1 a2 a3 a4 a5 a6 a7 a8 a9 a10 a11 (ix4 b t n k)
      = groupQ (group a0 b t) (group a1 b t) (mat a2) (mat a3) (mat a4) (mat a5) (mat a6) (mat a7)
          (mat a8) (vec a9) (mat a10) (vec a11) n k := rfl

end Cert.Interact

end
-- ==== Proof.LibWrites.lean ====
/-
  General facts about a straight line of host operations in single-assignment form.

  `Writes l W` says that operation number k of the line `l` writes exactly reference number k of the list `W`.
  A reference that is not in `W` keeps its contents through the line; the contents of a reference at the end of
  the line are its contents after any prefix that contains every operation writing it; and when no operation from
  position i on writes an operand, the result of operation i at the end of the line is its function applied to the
  operands' contents at the end of the line (the single-assignment equations of the line).
-/
import Idealize.ShloMosaic.Lib.StableHlo.Run

namespace Idealize.ShloMosaic.StableHlo

variable {τ : Topo} {sig : RefSig} {Val : EltTy → Type}

/-- Running `l₁ ++ l₂` is running `l₁` and then `l₂`. -/
theorem after_app (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The line cut at position `s`: the first `s` operations, then the rest. -/
theorem after_split (l : List (HloOp τ sig Val)) (s : Nat) (V : Valuation τ sig Val) :
    after l V = after (l.drop s) (after (l.take s) V) := by
  rw [← after_app, List.take_append_drop]

/-- Operation number k of `l` writes exactly reference number k of `W`. -/
def Writes : List (HloOp τ sig Val) → List (Ref sig .tc) → Prop
  | [], [] => True
  | op :: ops, y :: ys => op.writes = {Proc.devRef .tc y} ∧ Writes ops ys
  | [], _ :: _ => False
  | _ :: _, [] => False

theorem Writes.drop : ∀ {l : List (HloOp τ sig Val)} {W : List (Ref sig .tc)}, Writes l W → ∀ n : Nat, Writes (l.drop n) (W.drop n)
  | _, _, h, 0 => h
  | [], [], _, _ + 1 => trivial
  | _ :: _, _ :: _, h, n + 1 => Writes.drop h.2 n
  | [], _ :: _, h, _ + 1 => h.elim
  | _ :: _, [], h, _ + 1 => h.elim

/-- A reference the line does not write keeps its contents. -/
theorem after_of_writes : ∀ {l : List (HloOp τ sig Val)} {W : List (Ref sig .tc)}, Writes l W → ∀ {r : Ref sig .tc}, r ∉ W →
    ∀ V : Valuation τ sig Val, after l V (Proc.devRef .tc r) = V (Proc.devRef .tc r)
  | [], [], _, _, _, _ => rfl
  | op :: ops, y :: ys, h, r, hr, V => by
    rw [after_cons, after_of_writes h.2 (fun hm => hr (List.mem_cons_of_mem _ hm)),
      op.result_of_not_mem V (by
        rw [h.1, Finset.mem_singleton]
        exact devRef_ne_of_ne (fun e => hr (e ▸ List.mem_cons_self)))]
  | [], _ :: _, h, _, _, _ => h.elim
  | _ :: _, [], h, _, _, _ => h.elim

/-- The contents of a reference at the end of the line are its contents after the first `e` operations, when no
    later operation writes it. -/
theorem after_eq_take {l : List (HloOp τ sig Val)} {W : List (Ref sig .tc)} (h : Writes l W) (e : Nat) {r : Ref sig .tc}
    (hr : r ∉ W.drop e) (V : Valuation τ sig Val) :
    after l V (Proc.devRef .tc r) = after (l.take e) V (Proc.devRef .tc r) := by
  rw [after_split l e V]; exact after_of_writes (h.drop e) hr _

/-- Operation `i` heads the rest of the line from position `i`. -/
theorem drop_eq_cons {l : List (HloOp τ sig Val)} {i : Nat} {op : HloOp τ sig Val} (hi : l[i]? = some op) :
    l.drop i = op :: l.drop (i + 1) := by
  obtain ⟨hlt, he⟩ := List.getElem?_eq_some_iff.mp hi
  rw [← he]; exact List.drop_eq_getElem_cons hlt

/-- What the line leaves in the result of its operation `i`, in terms of the contents after the first `i`
    operations. -/
theorem after_at {l : List (HloOp τ sig Val)} {W : List (Ref sig .tc)} (h : Writes l W) (i : Nat) {op : HloOp τ sig Val}
    (hi : l[i]? = some op) {y : Ref sig .tc} (hy : y ∉ W.drop (i + 1)) (V : Valuation τ sig Val) :
    after l V (Proc.devRef .tc y) = op.result (after (l.take i) V) (Proc.devRef .tc y) := by
  rw [after_split l i V, drop_eq_cons hi, after_cons]
  exact after_of_writes (h.drop (i + 1)) hy _

section Equations
variable {l : List (HloOp τ sig Val)} {W : List (Ref sig .tc)} {x a b y : Ref sig .tc}

/-- The single-assignment equation of a nullary operation. -/
theorem ssa_nullary (h : Writes l W) (i : Nat) {v : y.ty.Contents Val} {hy}
    (hi : l[i]? = some (nullary (τ := τ) y v hy)) (hyW : y ∉ W.drop (i + 1)) (V : Valuation τ sig Val) :
    after l V (Proc.devRef .tc y) = v := by
  rw [after_at h i hi hyW, nullary_result]

/-- The single-assignment equation of a unary operation. -/
theorem ssa_unary (h : Writes l W) (i : Nat) {f : x.ty.Contents Val → y.ty.Contents Val} {hx hy}
    (hi : l[i]? = some (unary (τ := τ) x y f hx hy)) (hyW : y ∉ W.drop (i + 1)) (hxW : x ∉ W.drop i)
    (V : Valuation τ sig Val) :
    after l V (Proc.devRef .tc y) = f (after l V (Proc.devRef .tc x)) := by
  rw [after_at h i hi hyW, unary_result, after_eq_take h i hxW]

/-- The single-assignment equation of a binary operation. -/
theorem ssa_binary (h : Writes l W) (i : Nat) {f : a.ty.Contents Val → b.ty.Contents Val → y.ty.Contents Val} {ha hb hy}
    (hi : l[i]? = some (binary (τ := τ) a b y f ha hb hy)) (hyW : y ∉ W.drop (i + 1)) (haW : a ∉ W.drop i) (hbW : b ∉ W.drop i)
    (V : Valuation τ sig Val) :
    after l V (Proc.devRef .tc y) = f (after l V (Proc.devRef .tc a)) (after l V (Proc.devRef .tc b)) := by
  rw [after_at h i hi hyW, binary_result, after_eq_take h i haW, after_eq_take h i hbW]

/-- The single-assignment equation of a reshape. -/
theorem ssa_reshape (h : Writes l W) (i : Nat) {he hn hx hy}
    (hi : l[i]? = some (reshape (τ := τ) (Val := Val) x y he hn hx hy)) (hyW : y ∉ W.drop (i + 1)) (hxW : x ∉ W.drop i)
    (V : Valuation τ sig Val) :
    after l V (Proc.devRef .tc y) = fun j => he ▸ shapeCast y.ty.shape (after l V (Proc.devRef .tc x)) hn j := by
  rw [after_at h i hi hyW, reshape_result, after_eq_take h i hxW]

/-- The single-assignment equation of an operation of any number of operands. -/
theorem ssa_nary (h : Writes l W) (i : Nat) {n : Nat} {xs : Fin n → Ref sig .tc}
    {f : ((k : Fin n) → (xs k).ty.Contents Val) → y.ty.Contents Val} {hxs hy}
    (hi : l[i]? = some (nary (τ := τ) xs y f hxs hy)) (hyW : y ∉ W.drop (i + 1)) (hxW : ∀ k, xs k ∉ W.drop i)
    (V : Valuation τ sig Val) :
    after l V (Proc.devRef .tc y) = f (fun k => after l V (Proc.devRef .tc (xs k))) := by
  rw [after_at h i hi hyW, nary_result]
  congr 1; funext k; exact (after_eq_take h i (hxW k) V).symm

end Equations

end Idealize.ShloMosaic.StableHlo
-- ==== Proof.LibSideBySide.lean ====
/-
  Equal pieces laid side by side, read at coordinates, for any extents and any element type.
  Three (or two) matrices of one shape [a, k] concatenated along the column axis: column o + c of the result, where o is
  the total width of the pieces before piece number n and c < k, is piece n at column c, the row unchanged. Three
  vectors of one length [k] laid end to end: entry o + c is piece n at c. A column window of a matrix, starting at
  column o and keeping every row, reads the matrix at column o + c. Nothing here depends on a particular program.
-/
import Idealize.ShloMosaic.Lib.Pipeline.Value
import Idealize.ShloMosaic.Lib.ValueIdx

noncomputable section

open Idealize.ShloMosaic Idealize.ShloMosaic.ValueIdx

namespace Cert.Lib.SideBySide

variable {α : Type}

/-- A window of columns o … of a matrix, all rows kept: at (r, c) it is the matrix at (r, o + c). -/
theorem colWindow_apply {A B b : ℕ} (o : ℕ) (x : (⟨2, ![A, B]⟩ : Shape).Idx → α)
    (h : (⟨2, ![A, B]⟩ : Shape).Slices ![0, o] ⟨2, ![A, b]⟩) (r : Fin A) (c : Fin b) (hc : o + c.val < B) :
    extractStridedSlice ⟨2, ![A, b]⟩ ![0, o] x h (ix2 r c) = x (ix2 r ⟨o + c.val, hc⟩) :=
  extractStridedSlice_apply ![0, o] x h (ix2 r c) (ix2 r ⟨o + c.val, hc⟩)
    (fun d => match d with
      | ⟨0, _⟩ => (Nat.zero_add _).symm
      | ⟨1, _⟩ => rfl)

/-- Three matrices side by side: a column of the first. -/
theorem cols3_first {a k n : ℕ} (x0 x1 x2 : (⟨2, ![a, k]⟩ : Shape).Idx → α)
    (h : Shape.Concatenates [⟨2, ![a, k]⟩, ⟨2, ![a, k]⟩, ⟨2, ![a, k]⟩] ⟨2, ![a, n]⟩ 1) (p : Fin a) (c : Fin k) (hc : 0 + c.val < n) :
    concatenate ⟨2, ![a, n]⟩ 1 [⟨⟨2, ![a, k]⟩, x0⟩, ⟨⟨2, ![a, k]⟩, x1⟩, ⟨⟨2, ![a, k]⟩, x2⟩] h (ix2 p ⟨0 + c.val, hc⟩) = x0 (ix2 p c) :=
  concatenate_apply_piece 1 [⟨⟨2, ![a, k]⟩, x0⟩, ⟨⟨2, ![a, k]⟩, x1⟩, ⟨⟨2, ![a, k]⟩, x2⟩] h (ix2 p ⟨0 + c.val, hc⟩) 0 (by simp) ⟨2, ![a, k]⟩ x0 rfl rfl (0) rfl (ix2 p c)
    (fun b hb => match b, hb with | ⟨0, _⟩, _ => rfl | ⟨1, _⟩, hb => absurd rfl hb) rfl

/-- Three matrices side by side: a column of the second. -/
theorem cols3_second {a k n : ℕ} (x0 x1 x2 : (⟨2, ![a, k]⟩ : Shape).Idx → α)
    (h : Shape.Concatenates [⟨2, ![a, k]⟩, ⟨2, ![a, k]⟩, ⟨2, ![a, k]⟩] ⟨2, ![a, n]⟩ 1) (p : Fin a) (c : Fin k) (hc : k + c.val < n) :
    concatenate ⟨2, ![a, n]⟩ 1 [⟨⟨2, ![a, k]⟩, x0⟩, ⟨⟨2, ![a, k]⟩, x1⟩, ⟨⟨2, ![a, k]⟩, x2⟩] h (ix2 p ⟨k + c.val, hc⟩) = x1 (ix2 p c) :=
  concatenate_apply_piece 1 [⟨⟨2, ![a, k]⟩, x0⟩, ⟨⟨2, ![a, k]⟩, x1⟩, ⟨⟨2, ![a, k]⟩, x2⟩] h (ix2 p ⟨k + c.val, hc⟩) 1 (by simp) ⟨2, ![a, k]⟩ x1 rfl rfl (k) (by simp) (ix2 p c)
    (fun b hb => match b, hb with | ⟨0, _⟩, _ => rfl | ⟨1, _⟩, hb => absurd rfl hb) rfl

/-- Three matrices side by side: a column of the third. -/
theorem cols3_third {a k n : ℕ} (x0 x1 x2 : (⟨2, ![a, k]⟩ : Shape).Idx → α)
    (h : Shape.Concatenates [⟨2, ![a, k]⟩, ⟨2, ![a, k]⟩, ⟨2, ![a, k]⟩] ⟨2, ![a, n]⟩ 1) (p : Fin a) (c : Fin k) (hc : k + k + c.val < n) :
    concatenate ⟨2, ![a, n]⟩ 1 [⟨⟨2, ![a, k]⟩, x0⟩, ⟨⟨2, ![a, k]⟩, x1⟩, ⟨⟨2, ![a, k]⟩, x2⟩] h (ix2 p ⟨k + k + c.val, hc⟩) = x2 (ix2 p c) :=
  concatenate_apply_piece 1 [⟨⟨2, ![a, k]⟩, x0⟩, ⟨⟨2, ![a, k]⟩, x1⟩, ⟨⟨2, ![a, k]⟩, x2⟩] h (ix2 p ⟨k + k + c.val, hc⟩) 2 (by simp) ⟨2, ![a, k]⟩ x2 rfl rfl (k + k) (by simp) (ix2 p c)
    (fun b hb => match b, hb with | ⟨0, _⟩, _ => rfl | ⟨1, _⟩, hb => absurd rfl hb) rfl

/-- Two matrices side by side: a column of the first. -/
theorem cols2_first {a k n : ℕ} (x0 x1 : (⟨2, ![a, k]⟩ : Shape).Idx → α)
    (h : Shape.Concatenates [⟨2, ![a, k]⟩, ⟨2, ![a, k]⟩] ⟨2, ![a, n]⟩ 1) (p : Fin a) (c : Fin k) (hc : 0 + c.val < n) :
    concatenate ⟨2, ![a, n]⟩ 1 [⟨⟨2, ![a, k]⟩, x0⟩, ⟨⟨2, ![a, k]⟩, x1⟩] h (ix2 p ⟨0 + c.val, hc⟩) = x0 (ix2 p c) :=
  concatenate_apply_piece 1 [⟨⟨2, ![a, k]⟩, x0⟩, ⟨⟨2, ![a, k]⟩, x1⟩] h (ix2 p ⟨0 + c.val, hc⟩) 0 (by simp) ⟨2, ![a, k]⟩ x0 rfl rfl (0) rfl (ix2 p c)
    (fun b hb => match b, hb with | ⟨0, _⟩, _ => rfl | ⟨1, _⟩, hb => absurd rfl hb) rfl

/-- Two matrices side by side: a column of the second. -/
theorem cols2_second {a k n : ℕ} (x0 x1 : (⟨2, ![a, k]⟩ : Shape).Idx → α)
    (h : Shape.Concatenates [⟨2, ![a, k]⟩, ⟨2, ![a, k]⟩] ⟨2, ![a, n]⟩ 1) (p : Fin a) (c : Fin k) (hc : k + c.val < n) :
    concatenate ⟨2, ![a, n]⟩ 1 [⟨⟨2, ![a, k]⟩, x0⟩, ⟨⟨2, ![a, k]⟩, x1⟩] h (ix2 p ⟨k + c.val, hc⟩) = x1 (ix2 p c) :=
  concatenate_apply_piece 1 [⟨⟨2, ![a, k]⟩, x0⟩, ⟨⟨2, ![a, k]⟩, x1⟩] h (ix2 p ⟨k + c.val, hc⟩) 1 (by simp) ⟨2, ![a, k]⟩ x1 rfl rfl (k) (by simp) (ix2 p c)
    (fun b hb => match b, hb with | ⟨0, _⟩, _ => rfl | ⟨1, _⟩, hb => absurd rfl hb) rfl

/-- Three vectors end to end: an entry of the first. -/
theorem ends3_first {k n : ℕ} (x0 x1 x2 : (⟨1, ![k]⟩ : Shape).Idx → α)
    (h : Shape.Concatenates [⟨1, ![k]⟩, ⟨1, ![k]⟩, ⟨1, ![k]⟩] ⟨1, ![n]⟩ 0) (c : Fin k) (hc : 0 + c.val < n) :
    concatenate ⟨1, ![n]⟩ 0 [⟨⟨1, ![k]⟩, x0⟩, ⟨⟨1, ![k]⟩, x1⟩, ⟨⟨1, ![k]⟩, x2⟩] h (ix1 ⟨0 + c.val, hc⟩) = x0 (ix1 c) :=
  concatenate_apply_piece 0 [⟨⟨1, ![k]⟩, x0⟩, ⟨⟨1, ![k]⟩, x1⟩, ⟨⟨1, ![k]⟩, x2⟩] h (ix1 ⟨0 + c.val, hc⟩) 0 (by simp) ⟨1, ![k]⟩ x0 rfl rfl (0) rfl (ix1 c)
    (fun b hb => match b, hb with | ⟨0, _⟩, hb => absurd rfl hb) rfl

/-- Three vectors end to end: an entry of the second. -/
theorem ends3_second {k n : ℕ} (x0 x1 x2 : (⟨1, ![k]⟩ : Shape).Idx → α)
    (h : Shape.Concatenates [⟨1, ![k]⟩, ⟨1, ![k]⟩, ⟨1, ![k]⟩] ⟨1, ![n]⟩ 0) (c : Fin k) (hc : k + c.val < n) :
    concatenate ⟨1, ![n]⟩ 0 [⟨⟨1, ![k]⟩, x0⟩, ⟨⟨1, ![k]⟩, x1⟩, ⟨⟨1, ![k]⟩, x2⟩] h (ix1 ⟨k + c.val, hc⟩) = x1 (ix1 c) :=
  concatenate_apply_piece 0 [⟨⟨1, ![k]⟩, x0⟩, ⟨⟨1, ![k]⟩, x1⟩, ⟨⟨1, ![k]⟩, x2⟩] h (ix1 ⟨k + c.val, hc⟩) 1 (by simp) ⟨1, ![k]⟩ x1 rfl rfl (k) (by simp) (ix1 c)
    (fun b hb => match b, hb with | ⟨0, _⟩, hb => absurd rfl hb) rfl

/-- Three vectors end to end: an entry of the third. -/
theorem ends3_third {k n : ℕ} (x0 x1 x2 : (⟨1, ![k]⟩ : Shape).Idx → α)
    (h : Shape.Concatenates [⟨1, ![k]⟩, ⟨1, ![k]⟩, ⟨1, ![k]⟩] ⟨1, ![n]⟩ 0) (c : Fin k) (hc : k + k + c.val < n) :
    concatenate ⟨1, ![n]⟩ 0 [⟨⟨1, ![k]⟩, x0⟩, ⟨⟨1, ![k]⟩, x1⟩, ⟨⟨1, ![k]⟩, x2⟩] h (ix1 ⟨k + k + c.val, hc⟩) = x2 (ix1 c) :=
  concatenate_apply_piece 0 [⟨⟨1, ![k]⟩, x0⟩, ⟨⟨1, ![k]⟩, x1⟩, ⟨⟨1, ![k]⟩, x2⟩] h (ix1 ⟨k + k + c.val, hc⟩) 2 (by simp) ⟨1, ![k]⟩ x2 rfl rfl (k + k) (by simp) (ix1 c)
    (fun b hb => match b, hb with | ⟨0, _⟩, hb => absurd rfl hb) rfl

end Cert.Lib.SideBySide

end
-- ==== Proof.LibRowCast.lean ====
/- A vector laid out as a one-row matrix, read at coordinates, for any extent and any element type: a vector `[b]` cast to
   `[1, b]` reads, at `(z, c)`, the vector's entry `c` — both sit at row-major position `c`. Nothing here depends on a
   particular program; it is the companion of the `[1, b] → [b]` cast read. -/
import Idealize.ShloMosaic.Lib.Pipeline.Value
import Idealize.ShloMosaic.Lib.ValueIdx

noncomputable section

open Idealize.ShloMosaic Idealize.ShloMosaic.ValueIdx

namespace Cert.Lib.RowCast

/-- A vector `[b]` cast to a row `[1, b]` reads, at `(z, c)`, the vector at `c`. -/
theorem shapeCast_b_1b_apply {α : Type} {b : ℕ} (v : (⟨1, ![b]⟩ : Shape).Idx → α) (h : (⟨1, ![b]⟩ : Shape).ShapeCasts ⟨2, ![1, b]⟩)
    (z : Fin 1) (c : Fin b) : shapeCast ⟨2, ![1, b]⟩ v h (ix2 z c) = v (ix1 c) := by
  refine shapeCast_apply v h (ix2 z c) (ix1 c) ?_
  rw [Shape.rowMajor_val_one, Shape.rowMajor_val_two]
  show c.val = z.val * b + c.val
  have := z.isLt
  have hz : z.val = 0 := by omega
  rw [hz, Nat.zero_mul, Nat.zero_add]

end Cert.Lib.RowCast

end
-- ==== Proof.HostPrefix.lean ====
/-
  What the region finds in each window's array, in terms of the argument arrays, on the extended reals.

  The nineteen host operations are in single-assignment form: operation k writes reference k of `written`, once. So the
  contents of a result at the end of the line is its operation's function of its operands' contents at the end of the
  line. Read on the extended reals, where a change of float format is the identity:
    the two token arrays reach the region unchanged;
    each fused weight matrix is three matrices side by side — the query weights times the scale word, the key weights,
    the value weights;
    the two halves of the first feed-forward matrix are its upper and lower 512 rows;
    the second feed-forward matrix is unchanged, and each bias vector is laid out as one row.
-/
import proofs.«168204_j71880572666182_2_alg».proof.Proof.FrameKernelIdeal
import proofs.«168204_j71880572666182_2_alg».proof.Proof.Spec
import proofs.«168204_j71880572666182_2_alg».proof.Proof.LibWrites
import proofs.«168204_j71880572666182_2_alg».proof.Proof.LibSideBySide
import proofs.«168204_j71880572666182_2_alg».proof.Proof.LibRowCast
import Idealize.ShloMosaic.Lib.Pipeline.Value
import Idealize.ShloMosaic.Lib.ValueIdx

noncomputable section

namespace Cert.KernelIdeal.Whole

open Cert.KernelIdeal Cert.KernelIdeal.Gen Cert.KernelIdeal.Frame Cert.Interact
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The references the nineteen host operations write, in order. -/
def written : List (Ref sig .tc) :=
  [main_v0, main_v1, main_cst, main_v2, main_v3, main_v4, main_v5, main_cst_0, main_v6, main_v7, main_v8, main_v9, main_v10,
    main_v11, main_v12, main_v13, main_v14, main_v15, main_v16]

/-- Operation k of the host line writes reference k of `written`. -/
theorem writes : Writes (hostOps0 (F := Ideal)) written := by
  simp only [Writes, written, hostOps0, unary_writes, nullary_writes, binary_writes, nary_writes, reshape_writes, and_self]

/-- Core `c`'s buffers on entry to the region: the launch contents after the host line. -/
def E (c : Dev nD) : Valuation τ sig (Elt Ideal) := after (hostOps0 (F := Ideal)) (fun b => m (c, b))

theorem V_eq_E (c : Dev nD) (b : Ref sig .tc) : V m c b = E m c (Proc.devRef .tc b) := rfl

/-- An argument array reaches the region as launched. -/
theorem E_arg (c : Dev nD) {r : Ref sig .tc} (hr : r ∉ written) : E m c (Proc.devRef .tc r) = m (c, Proc.devRef .tc r) :=
  after_of_writes writes hr _

/-! ## The argument arrays, at their literal types -/

abbrev arr0 (c : Dev nD) : (⟨4, ![16, 128, 64, 256]⟩ : Shape).Idx → EReal := m (c, Proc.devRef .tc main_arg0)
abbrev arr1 (c : Dev nD) : (⟨4, ![16, 128, 64, 256]⟩ : Shape).Idx → EReal := m (c, Proc.devRef .tc main_arg1)
abbrev arr2 (c : Dev nD) : (⟨2, ![256, 512]⟩ : Shape).Idx → EReal := m (c, Proc.devRef .tc main_arg2)
abbrev arr3 (c : Dev nD) : (⟨2, ![256, 512]⟩ : Shape).Idx → EReal := m (c, Proc.devRef .tc main_arg3)
abbrev arr4 (c : Dev nD) : (⟨2, ![256, 512]⟩ : Shape).Idx → EReal := m (c, Proc.devRef .tc main_arg4)
abbrev arr5 (c : Dev nD) : (⟨2, ![256, 512]⟩ : Shape).Idx → EReal := m (c, Proc.devRef .tc main_arg5)
abbrev arr6 (c : Dev nD) : (⟨2, ![256, 512]⟩ : Shape).Idx → EReal := m (c, Proc.devRef .tc main_arg6)
abbrev arr7 (c : Dev nD) : (⟨2, ![256, 512]⟩ : Shape).Idx → EReal := m (c, Proc.devRef .tc main_arg7)
abbrev arr8 (c : Dev nD) : (⟨2, ![1024, 512]⟩ : Shape).Idx → EReal := m (c, Proc.devRef .tc main_arg8)
abbrev arr9 (c : Dev nD) : (⟨1, ![512]⟩ : Shape).Idx → EReal := m (c, Proc.devRef .tc main_arg9)
abbrev arr10 (c : Dev nD) : (⟨2, ![512, 512]⟩ : Shape).Idx → EReal := m (c, Proc.devRef .tc main_arg10)
abbrev arr11 (c : Dev nD) : (⟨1, ![512]⟩ : Shape).Idx → EReal := m (c, Proc.devRef .tc main_arg11)

/-! ## The token arrays: a change of float format only -/

theorem x1_read (c : Dev nD) (i : S16x128x64x256.Idx) :
    E m c (Proc.devRef .tc main_v0) i = arr0 m c i := by
  have e := ssa_unary writes 0 (V := fun b => m (c, b)) (l := hostOps0 (F := Ideal)) rfl (by decide) (by decide)
  have a := E_arg m c (r := main_arg0) (by decide)
  unfold E at a ⊢
  rw [e, a]; rfl

theorem x2_read (c : Dev nD) (i : S16x128x64x256.Idx) :
    E m c (Proc.devRef .tc main_v1) i = arr1 m c i := by
  have e := ssa_unary writes 1 (V := fun b => m (c, b)) (l := hostOps0 (F := Ideal)) rfl (by decide) (by decide)
  have a := E_arg m c (r := main_arg1) (by decide)
  unfold E at a ⊢
  rw [e, a]; rfl

/-! ## The fused weight matrices: three matrices side by side -/

theorem wq1_read (c : Dev nD) (d : Fin 256) (h : Fin 512) :
    E m c (Proc.devRef .tc main_v5) (ix2 d ⟨0 + h.val, by omega⟩) = arr2 m c (ix2 d h) * scale := by
  have e5 := ssa_unary writes 6 (V := fun b => m (c, b)) (l := hostOps0 (F := Ideal)) rfl (by decide) (by decide)
  have e4 := ssa_nary writes 5 (V := fun b => m (c, b)) (l := hostOps0 (F := Ideal)) rfl (by decide) (by decide)
  have e3 := ssa_binary writes 4 (V := fun b => m (c, b)) (l := hostOps0 (F := Ideal)) rfl (by decide) (by decide) (by decide)
  have e2 := ssa_unary writes 3 (V := fun b => m (c, b)) (l := hostOps0 (F := Ideal)) rfl (by decide) (by decide)
  have e1 := ssa_nullary writes 2 (V := fun b => m (c, b)) (l := hostOps0 (F := Ideal)) rfl (by decide)
  have a := E_arg m c (r := main_arg2) (by decide)
  unfold E at a ⊢
  rw [e5]
  show after hostOps0 (fun b => m (c, b)) (Proc.devRef .tc main_v4) (ix2 d ⟨0 + h.val, by omega⟩) = _
  rw [e4]
  refine (Cert.Lib.SideBySide.cols3_first _ _ _ concatenates_S256x512_S256x512_S256x512_S256x1536_d1 d h (by omega)).trans ?_
  show after hostOps0 (fun b => m (c, b)) (Proc.devRef .tc main_v3) (ix2 d h) = _
  rw [e3]
  rw [a, e2, e1]
  rfl

theorem wk1_read (c : Dev nD) (d : Fin 256) (h : Fin 512) :
    E m c (Proc.devRef .tc main_v5) (ix2 d ⟨512 + h.val, by omega⟩) = arr3 m c (ix2 d h) := by
  have e5 := ssa_unary writes 6 (V := fun b => m (c, b)) (l := hostOps0 (F := Ideal)) rfl (by decide) (by decide)
  have e4 := ssa_nary writes 5 (V := fun b => m (c, b)) (l := hostOps0 (F := Ideal)) rfl (by decide) (by decide)
  have a := E_arg m c (r := main_arg3) (by decide)
  unfold E at a ⊢
  rw [e5]
  show after hostOps0 (fun b => m (c, b)) (Proc.devRef .tc main_v4) (ix2 d ⟨512 + h.val, by omega⟩) = _
  rw [e4]
  refine (Cert.Lib.SideBySide.cols3_second _ _ _ concatenates_S256x512_S256x512_S256x512_S256x1536_d1 d h (by omega)).trans ?_
  show after hostOps0 (fun b => m (c, b)) (Proc.devRef .tc main_arg3) (ix2 d h) = _
  rw [a]

theorem wv1_read (c : Dev nD) (d : Fin 256) (h : Fin 512) :
    E m c (Proc.devRef .tc main_v5) (ix2 d ⟨512 + 512 + h.val, by omega⟩) = arr4 m c (ix2 d h) := by
  have e5 := ssa_unary writes 6 (V := fun b => m (c, b)) (l := hostOps0 (F := Ideal)) rfl (by decide) (by decide)
  have e4 := ssa_nary writes 5 (V := fun b => m (c, b)) (l := hostOps0 (F := Ideal)) rfl (by decide) (by decide)
  have a := E_arg m c (r := main_arg4) (by decide)
  unfold E at a ⊢
  rw [e5]
  show after hostOps0 (fun b => m (c, b)) (Proc.devRef .tc main_v4) (ix2 d ⟨512 + 512 + h.val, by omega⟩) = _
  rw [e4]
  refine (Cert.Lib.SideBySide.cols3_third _ _ _ concatenates_S256x512_S256x512_S256x512_S256x1536_d1 d h (by omega)).trans ?_
  show after hostOps0 (fun b => m (c, b)) (Proc.devRef .tc main_arg4) (ix2 d h) = _
  rw [a]

theorem wq2_read (c : Dev nD) (d : Fin 256) (h : Fin 512) :
    E m c (Proc.devRef .tc main_v9) (ix2 d ⟨0 + h.val, by omega⟩) = arr5 m c (ix2 d h) * scale := by
  have e5 := ssa_unary writes 11 (V := fun b => m (c, b)) (l := hostOps0 (F := Ideal)) rfl (by decide) (by decide)
  have e4 := ssa_nary writes 10 (V := fun b => m (c, b)) (l := hostOps0 (F := Ideal)) rfl (by decide) (by decide)
  have e3 := ssa_binary writes 9 (V := fun b => m (c, b)) (l := hostOps0 (F := Ideal)) rfl (by decide) (by decide) (by decide)
  have e2 := ssa_unary writes 8 (V := fun b => m (c, b)) (l := hostOps0 (F := Ideal)) rfl (by decide) (by decide)
  have e1 := ssa_nullary writes 7 (V := fun b => m (c, b)) (l := hostOps0 (F := Ideal)) rfl (by decide)
  have a := E_arg m c (r := main_arg5) (by decide)
  unfold E at a ⊢
  rw [e5]
  show after hostOps0 (fun b => m (c, b)) (Proc.devRef .tc main_v8) (ix2 d ⟨0 + h.val, by omega⟩) = _
  rw [e4]
  refine (Cert.Lib.SideBySide.cols3_first _ _ _ concatenates_S256x512_S256x512_S256x512_S256x1536_d1 d h (by omega)).trans ?_
  show after hostOps0 (fun b => m (c, b)) (Proc.devRef .tc main_v7) (ix2 d h) = _
  rw [e3]
  rw [a, e2, e1]
  rfl

theorem wk2_read (c : Dev nD) (d : Fin 256) (h : Fin 512) :
    E m c (Proc.devRef .tc main_v9) (ix2 d ⟨512 + h.val, by omega⟩) = arr6 m c (ix2 d h) := by
  have e5 := ssa_unary writes 11 (V := fun b => m (c, b)) (l := hostOps0 (F := Ideal)) rfl (by decide) (by decide)
  have e4 := ssa_nary writes 10 (V := fun b => m (c, b)) (l := hostOps0 (F := Ideal)) rfl (by decide) (by decide)
  have a := E_arg m c (r := main_arg6) (by decide)
  unfold E at a ⊢
  rw [e5]
  show after hostOps0 (fun b => m (c, b)) (Proc.devRef .tc main_v8) (ix2 d ⟨512 + h.val, by omega⟩) = _
  rw [e4]
  refine (Cert.Lib.SideBySide.cols3_second _ _ _ concatenates_S256x512_S256x512_S256x512_S256x1536_d1 d h (by omega)).trans ?_
  show after hostOps0 (fun b => m (c, b)) (Proc.devRef .tc main_arg6) (ix2 d h) = _
  rw [a]

theorem wv2_read (c : Dev nD) (d : Fin 256) (h : Fin 512) :
    E m c (Proc.devRef .tc main_v9) (ix2 d ⟨512 + 512 + h.val, by omega⟩) = arr7 m c (ix2 d h) := by
  have e5 := ssa_unary writes 11 (V := fun b => m (c, b)) (l := hostOps0 (F := Ideal)) rfl (by decide) (by decide)
  have e4 := ssa_nary writes 10 (V := fun b => m (c, b)) (l := hostOps0 (F := Ideal)) rfl (by decide) (by decide)
  have a := E_arg m c (r := main_arg7) (by decide)
  unfold E at a ⊢
  rw [e5]
  show after hostOps0 (fun b => m (c, b)) (Proc.devRef .tc main_v8) (ix2 d ⟨512 + 512 + h.val, by omega⟩) = _
  rw [e4]
  refine (Cert.Lib.SideBySide.cols3_third _ _ _ concatenates_S256x512_S256x512_S256x512_S256x1536_d1 d h (by omega)).trans ?_
  show after hostOps0 (fun b => m (c, b)) (Proc.devRef .tc main_arg7) (ix2 d h) = _
  rw [a]

/-! ## The feed-forward matrices and the bias rows -/

theorem w1a_read (c : Dev nD) (f j : Fin 512) :
    E m c (Proc.devRef .tc main_v11) (ix2 f j) = arr8 m c (ix2 ⟨f.val, by omega⟩ j) := by
  have e11 := ssa_unary writes 13 (V := fun b => m (c, b)) (l := hostOps0 (F := Ideal)) rfl (by decide) (by decide)
  have e10 := ssa_unary writes 12 (V := fun b => m (c, b)) (l := hostOps0 (F := Ideal)) rfl (by decide) (by decide)
  have a := E_arg m c (r := main_arg8) (by decide)
  unfold E at a ⊢
  rw [e11]
  show after hostOps0 (fun b => m (c, b)) (Proc.devRef .tc main_v10) (ix2 f j) = _
  rw [e10]
  refine (extractStridedSlice_apply ![0, 0] _ slices_S1024x512_S512x512_0_0 (ix2 f j) (ix2 ⟨f.val, by omega⟩ j)
    (fun d => match d with
      | ⟨0, _⟩ => (Nat.zero_add _).symm
      | ⟨1, _⟩ => (Nat.zero_add _).symm)).trans ?_
  rw [a]

theorem w1b_read (c : Dev nD) (f j : Fin 512) :
    E m c (Proc.devRef .tc main_v13) (ix2 f j) = arr8 m c (ix2 ⟨512 + f.val, by omega⟩ j) := by
  have e13 := ssa_unary writes 15 (V := fun b => m (c, b)) (l := hostOps0 (F := Ideal)) rfl (by decide) (by decide)
  have e12 := ssa_unary writes 14 (V := fun b => m (c, b)) (l := hostOps0 (F := Ideal)) rfl (by decide) (by decide)
  have a := E_arg m c (r := main_arg8) (by decide)
  unfold E at a ⊢
  rw [e13]
  show after hostOps0 (fun b => m (c, b)) (Proc.devRef .tc main_v12) (ix2 f j) = _
  rw [e12]
  refine (extractStridedSlice_apply ![512, 0] _ slices_S1024x512_S512x512_512_0 (ix2 f j) (ix2 ⟨512 + f.val, by omega⟩ j)
    (fun d => match d with
      | ⟨0, _⟩ => rfl
      | ⟨1, _⟩ => (Nat.zero_add _).symm)).trans ?_
  rw [a]

theorem w2_read (c : Dev nD) (i : S512x512.Idx) :
    E m c (Proc.devRef .tc main_v14) i = arr10 m c i := by
  have e := ssa_unary writes 16 (V := fun b => m (c, b)) (l := hostOps0 (F := Ideal)) rfl (by decide) (by decide)
  have a := E_arg m c (r := main_arg10) (by decide)
  unfold E at a ⊢
  rw [e, a]; rfl

theorem b1_read (c : Dev nD) (j : Fin 512) :
    E m c (Proc.devRef .tc main_v15) (ix2 0 j) = arr9 m c (ix1 j) := by
  have e := ssa_reshape writes 17 (V := fun b => m (c, b)) (l := hostOps0 (F := Ideal)) rfl (by decide) (by decide)
  have a := E_arg m c (r := main_arg9) (by decide)
  unfold E at a ⊢
  rw [e]
  refine (Cert.Lib.RowCast.shapeCast_b_1b_apply _ shapeCasts_S512_S1x512 0 j).trans ?_
  rw [a]

theorem b2_read (c : Dev nD) (j : Fin 512) :
    E m c (Proc.devRef .tc main_v16) (ix2 0 j) = arr11 m c (ix1 j) := by
  have e := ssa_reshape writes 18 (V := fun b => m (c, b)) (l := hostOps0 (F := Ideal)) rfl (by decide) (by decide)
  have a := E_arg m c (r := main_arg11) (by decide)
  unfold E at a ⊢
  rw [e]
  refine (Cert.Lib.RowCast.shapeCast_b_1b_apply _ shapeCasts_S512_S1x512 0 j).trans ?_
  rw [a]

end Cert.KernelIdeal.Whole

end
-- ==== Proof.BlockLayout.lean ====
/-
  Layout reads used by the cross-attention block, for any extents and any element type.
  A [a, b, c] array cast row-major to [m, c] with m = a * b reads, at (r, d) with r = p * b + q, the entry (p, q, d);
  the cast back reads the same way. A [a, b] array given a trailing unit axis reads (p, q) at (p, q, z); a [a, b, 1]
  array broadcast along its last axis reads (p, q, 0) at every (p, q, h).
-/
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.Interact.Block

variable {α : Type}

/-- Row p * b + q of the flattened [a * b, c] form of a [a, b, c] array is row (p, q). -/
theorem cast_abc_mc_apply {a b c m : ℕ} (x : (⟨3, ![a, b, c]⟩ : Shape).Idx → α)
    (h : (⟨3, ![a, b, c]⟩ : Shape).ShapeCasts ⟨2, ![m, c]⟩) (p : Fin a) (q : Fin b) (d : Fin c) (r : Fin m)
    (hr : r.val = p.val * b + q.val) :
    shapeCast ⟨2, ![m, c]⟩ x h (ix2 r d) = x (ix3 p q d) :=
  shapeCast_apply x h _ _ (by
    rw [Shape.rowMajor_val_three, Shape.rowMajor_val_two]
    show (p.val * b + q.val) * c + d.val = r.val * c + d.val
    rw [hr])

/-- Row (p, q) of the [a, b, c] form of a flat [m, c] array is row p * b + q. -/
theorem cast_mc_abc_apply {a b c m : ℕ} (x : (⟨2, ![m, c]⟩ : Shape).Idx → α)
    (h : (⟨2, ![m, c]⟩ : Shape).ShapeCasts ⟨3, ![a, b, c]⟩) (p : Fin a) (q : Fin b) (d : Fin c) (r : Fin m)
    (hr : r.val = p.val * b + q.val) :
    shapeCast ⟨3, ![a, b, c]⟩ x h (ix3 p q d) = x (ix2 r d) :=
  shapeCast_apply x h _ _ (by
    rw [Shape.rowMajor_val_three, Shape.rowMajor_val_two]
    show r.val * c + d.val = (p.val * b + q.val) * c + d.val
    rw [hr])

/-- A [a, b] array given a trailing unit axis reads, at (p, q, z), the entry (p, q). -/
theorem cast_ab_ab1_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_three, Shape.rowMajor_val_two]
    show p.val * b + q.val = (p.val * b + q.val) * 1 + z.val
    rw [hz, Nat.mul_one, Nat.add_zero])

/-- A [a, b, 1] array broadcast along its last axis to [a, b, c] reads, at (p, q, h), the entry (p, q, 0). -/
theorem bcast_ab1_abc_apply {a b c : ℕ} (v : (⟨3, ![a, b, 1]⟩ : Shape).Idx → α)
    (hb : (⟨3, ![a, b, 1]⟩ : Shape).Broadcasts ⟨3, ![a, b, c]⟩) (p : Fin a) (q : Fin b) (h : Fin c) :
    broadcastTo ⟨3, ![a, b, c]⟩ v hb (ix3 p q h) = v (ix3 p q (0 : Fin 1)) := by
  refine broadcastTo_apply v hb (ix3 p q h) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.Interact.Block

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.BlockMatmul.lean ====
/-
  The block's four contractions read at coordinates, on the extended reals, each into the zero accumulator.
  Queries against keys, per token group: entry (t, n, m) is the sum over h of left(t, n, h) * right(t, m, h).
  Weights against values, per token group: entry (t, n, f) is the sum over m of left(t, n, m) * right(t, m, f).
  The two plain products [1024, 256] x [256, 1536] and [1024, 512] x [512, 512]: entry (r, c) is the sum over k of
  left(r, k) * right(k, c).
-/
import proofs.«168204_j71880572666182_2_alg».proof.Proof.Gen.KernelIdeal.Skeleton
import proofs.«168204_j71880572666182_2_alg».proof.Proof.LibPlainMatmul
import Idealize.ShloMosaic.PureOps.Ideal.Laws
import Idealize.ShloMosaic.Lib.ValueIdx

noncomputable section

open scoped BigOperators

open Idealize.ShloMosaic Idealize.ShloMosaic.ValueIdx Cert.KernelIdeal Cert.KernelIdeal.Gen

namespace Cert.Interact.Block

/-! ## Queries against keys: batch axis 0, both operands contracted on axis 2 -/

theorem qk_lhs_0 (i : S16x64x64.Idx) (q : dot_S16x64x512_S16x64x512_S16x64x64_2_2_1_1_0_0.contr.Idx) :
    (dot_S16x64x512_S16x64x512_S16x64x64_2_2_1_1_0_0.lhsIdx i q 0).val = (i 0).val := by
  unfold DotDims.lhsIdx
  rw [dif_pos (show (0 : Fin S16x64x512.rank) ∈ dot_S16x64x512_S16x64x512_S16x64x64_2_2_1_1_0_0.lhsBatch by decide)]
  rfl
theorem qk_lhs_1 (i : S16x64x64.Idx) (q : dot_S16x64x512_S16x64x512_S16x64x64_2_2_1_1_0_0.contr.Idx) :
    (dot_S16x64x512_S16x64x512_S16x64x64_2_2_1_1_0_0.lhsIdx i q 1).val = (i 1).val := by
  unfold DotDims.lhsIdx
  rw [dif_neg (show ¬(1 : Fin S16x64x512.rank) ∈ dot_S16x64x512_S16x64x512_S16x64x64_2_2_1_1_0_0.lhsBatch by decide),
    dif_pos (show (1 : Fin S16x64x512.rank) ∈ dot_S16x64x512_S16x64x512_S16x64x64_2_2_1_1_0_0.lhsNonContracting by decide)]
  rfl
theorem qk_lhs_2 (i : S16x64x64.Idx) (q : dot_S16x64x512_S16x64x512_S16x64x64_2_2_1_1_0_0.contr.Idx) :
    (dot_S16x64x512_S16x64x512_S16x64x64_2_2_1_1_0_0.lhsIdx i q 2).val = (q ⟨0, by decide⟩).val :=
  dot_S16x64x512_S16x64x512_S16x64x64_2_2_1_1_0_0.lhsIdx_val_of_single rfl i q
theorem qk_rhs_0 (i : S16x64x64.Idx) (q : dot_S16x64x512_S16x64x512_S16x64x64_2_2_1_1_0_0.contr.Idx) :
    (dot_S16x64x512_S16x64x512_S16x64x64_2_2_1_1_0_0.rhsIdx i q 0).val = (i 0).val := by
  unfold DotDims.rhsIdx
  rw [dif_pos (show (0 : Fin S16x64x512.rank) ∈ dot_S16x64x512_S16x64x512_S16x64x64_2_2_1_1_0_0.rhsBatch by decide)]
  rfl
theorem qk_rhs_1 (i : S16x64x64.Idx) (q : dot_S16x64x512_S16x64x512_S16x64x64_2_2_1_1_0_0.contr.Idx) :
    (dot_S16x64x512_S16x64x512_S16x64x64_2_2_1_1_0_0.rhsIdx i q 1).val = (i 2).val := by
  unfold DotDims.rhsIdx
  rw [dif_neg (show ¬(1 : Fin S16x64x512.rank) ∈ dot_S16x64x512_S16x64x512_S16x64x64_2_2_1_1_0_0.rhsBatch by decide),
    dif_pos (show (1 : Fin S16x64x512.rank) ∈ dot_S16x64x512_S16x64x512_S16x64x64_2_2_1_1_0_0.rhsNonContracting by decide)]
  rfl
theorem qk_rhs_2 (i : S16x64x64.Idx) (q : dot_S16x64x512_S16x64x512_S16x64x64_2_2_1_1_0_0.contr.Idx) :
    (dot_S16x64x512_S16x64x512_S16x64x64_2_2_1_1_0_0.rhsIdx i q 2).val = (q ⟨0, by decide⟩).val :=
  dot_S16x64x512_S16x64x512_S16x64x64_2_2_1_1_0_0.rhsIdx_val_of_single rfl i q

/-- Queries against keys at (t, n, m): the sum over h of left(t, n, h) * right(t, m, h). -/
theorem qk_apply {φ₁ φ₂ : FTy} (l : FVec Ideal S16x64x512 φ₁) (r : FVec Ideal S16x64x512 φ₂) (tl : Fin 16) (n m : Fin 64) :
    matmul dot_S16x64x512_S16x64x512_S16x64x64_2_2_1_1_0_0 none l r (constant (F := Ideal) S16x64x64 .f32 0x00000000#32) (ix3 tl n m)
      = ∑ h : Fin 512, l (ix3 tl n h) * r (ix3 tl m h) := by
  refine (Ideal.matmul_constant_zero_apply dot_S16x64x512_S16x64x512_S16x64x64_2_2_1_1_0_0 none l r (ix3 tl n m)).trans ?_
  rw [← Equiv.sum_comp (contrEquiv1 dot_S16x64x512_S16x64x512_S16x64x64_2_2_1_1_0_0 512 rfl rfl).symm]
  refine Finset.sum_congr rfl fun k _ => ?_
  have hk := contrEquiv1_symm_val dot_S16x64x512_S16x64x512_S16x64x64_2_2_1_1_0_0 512 rfl rfl k
  have el : dot_S16x64x512_S16x64x512_S16x64x64_2_2_1_1_0_0.lhsIdx (ix3 tl n m)
      ((contrEquiv1 dot_S16x64x512_S16x64x512_S16x64x64_2_2_1_1_0_0 512 rfl rfl).symm k) = ix3 tl n k := funext fun a => Fin.ext (by
    match a with
    | ⟨0, _⟩ => exact qk_lhs_0 _ _
    | ⟨1, _⟩ => exact qk_lhs_1 _ _
    | ⟨2, _⟩ => exact (qk_lhs_2 _ _).trans hk)
  have er : dot_S16x64x512_S16x64x512_S16x64x64_2_2_1_1_0_0.rhsIdx (ix3 tl n m)
      ((contrEquiv1 dot_S16x64x512_S16x64x512_S16x64x64_2_2_1_1_0_0 512 rfl rfl).symm k) = ix3 tl m k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-! ## Weights against values: batch axis 0, left contracted on axis 2, right on axis 1 -/

theorem pv_lhs_0 (i : S16x64x512.Idx) (q : dot_S16x64x64_S16x64x512_S16x64x512_2_1_1_2_0_0.contr.Idx) :
    (dot_S16x64x64_S16x64x512_S16x64x512_2_1_1_2_0_0.lhsIdx i q 0).val = (i 0).val := by
  unfold DotDims.lhsIdx
  rw [dif_pos (show (0 : Fin S16x64x64.rank) ∈ dot_S16x64x64_S16x64x512_S16x64x512_2_1_1_2_0_0.lhsBatch by decide)]
  rfl
theorem pv_lhs_1 (i : S16x64x512.Idx) (q : dot_S16x64x64_S16x64x512_S16x64x512_2_1_1_2_0_0.contr.Idx) :
    (dot_S16x64x64_S16x64x512_S16x64x512_2_1_1_2_0_0.lhsIdx i q 1).val = (i 1).val := by
  unfold DotDims.lhsIdx
  rw [dif_neg (show ¬(1 : Fin S16x64x64.rank) ∈ dot_S16x64x64_S16x64x512_S16x64x512_2_1_1_2_0_0.lhsBatch by decide),
    dif_pos (show (1 : Fin S16x64x64.rank) ∈ dot_S16x64x64_S16x64x512_S16x64x512_2_1_1_2_0_0.lhsNonContracting by decide)]
  rfl
theorem pv_lhs_2 (i : S16x64x512.Idx) (q : dot_S16x64x64_S16x64x512_S16x64x512_2_1_1_2_0_0.contr.Idx) :
    (dot_S16x64x64_S16x64x512_S16x64x512_2_1_1_2_0_0.lhsIdx i q 2).val = (q ⟨0, by decide⟩).val :=
  dot_S16x64x64_S16x64x512_S16x64x512_2_1_1_2_0_0.lhsIdx_val_of_single rfl i q
theorem pv_rhs_0 (i : S16x64x512.Idx) (q : dot_S16x64x64_S16x64x512_S16x64x512_2_1_1_2_0_0.contr.Idx) :
    (dot_S16x64x64_S16x64x512_S16x64x512_2_1_1_2_0_0.rhsIdx i q 0).val = (i 0).val := by
  unfold DotDims.rhsIdx
  rw [dif_pos (show (0 : Fin S16x64x512.rank) ∈ dot_S16x64x64_S16x64x512_S16x64x512_2_1_1_2_0_0.rhsBatch by decide)]
  rfl
theorem pv_rhs_1 (i : S16x64x512.Idx) (q : dot_S16x64x64_S16x64x512_S16x64x512_2_1_1_2_0_0.contr.Idx) :
    (dot_S16x64x64_S16x64x512_S16x64x512_2_1_1_2_0_0.rhsIdx i q 1).val = (q ⟨0, by decide⟩).val :=
  dot_S16x64x64_S16x64x512_S16x64x512_2_1_1_2_0_0.rhsIdx_val_of_single rfl i q
theorem pv_rhs_2 (i : S16x64x512.Idx) (q : dot_S16x64x64_S16x64x512_S16x64x512_2_1_1_2_0_0.contr.Idx) :
    (dot_S16x64x64_S16x64x512_S16x64x512_2_1_1_2_0_0.rhsIdx i q 2).val = (i 2).val := by
  unfold DotDims.rhsIdx
  rw [dif_neg (show ¬(2 : Fin S16x64x512.rank) ∈ dot_S16x64x64_S16x64x512_S16x64x512_2_1_1_2_0_0.rhsBatch by decide),
    dif_pos (show (2 : Fin S16x64x512.rank) ∈ dot_S16x64x64_S16x64x512_S16x64x512_2_1_1_2_0_0.rhsNonContracting by decide)]
  rfl

/-- Weights against values at (t, n, f): the sum over m of left(t, n, m) * right(t, m, f). -/
theorem pv_apply {φ₁ φ₂ : FTy} (l : FVec Ideal S16x64x64 φ₁) (r : FVec Ideal S16x64x512 φ₂) (tl : Fin 16) (n : Fin 64) (f : Fin 512) :
    matmul dot_S16x64x64_S16x64x512_S16x64x512_2_1_1_2_0_0 none l r (constant (F := Ideal) S16x64x512 .f32 0x00000000#32) (ix3 tl n f)
      = ∑ m : Fin 64, l (ix3 tl n m) * r (ix3 tl m f) := by
  refine (Ideal.matmul_constant_zero_apply dot_S16x64x64_S16x64x512_S16x64x512_2_1_1_2_0_0 none l r (ix3 tl n f)).trans ?_
  rw [← Equiv.sum_comp (contrEquiv1 dot_S16x64x64_S16x64x512_S16x64x512_2_1_1_2_0_0 64 rfl rfl).symm]
  refine Finset.sum_congr rfl fun k _ => ?_
  have hk := contrEquiv1_symm_val dot_S16x64x64_S16x64x512_S16x64x512_2_1_1_2_0_0 64 rfl rfl k
  have el : dot_S16x64x64_S16x64x512_S16x64x512_2_1_1_2_0_0.lhsIdx (ix3 tl n f)
      ((contrEquiv1 dot_S16x64x64_S16x64x512_S16x64x512_2_1_1_2_0_0 64 rfl rfl).symm k) = ix3 tl n k := funext fun a => Fin.ext (by
    match a with
    | ⟨0, _⟩ => exact pv_lhs_0 _ _
    | ⟨1, _⟩ => exact pv_lhs_1 _ _
    | ⟨2, _⟩ => exact (pv_lhs_2 _ _).trans hk)
  have er : dot_S16x64x64_S16x64x512_S16x64x512_2_1_1_2_0_0.rhsIdx (ix3 tl n f)
      ((contrEquiv1 dot_S16x64x64_S16x64x512_S16x64x512_2_1_1_2_0_0 64 rfl rfl).symm k) = ix3 tl k f := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## The two plain products -/

/-- Rows against the fused weights at (r, c): the sum over d of left(r, d) * right(d, c). -/
theorem xw_apply {φ₁ φ₂ : FTy} (l : FVec Ideal S1024x256 φ₁) (r : FVec Ideal S256x1536 φ₂) (p : Fin 1024) (c : Fin 1536) :
    matmul dot_S1024x256_S256x1536_S1024x1536_1_0_0_1_n_n none l r (constant (F := Ideal) S1024x1536 .f32 0x00000000#32) (ix2 p c)
      = ∑ d : Fin 256, l (ix2 p d) * r (ix2 d c) :=
  Cert.Lib.PlainMatmul.plain_matmul_zero_apply (M := 1024) (K := 256) (N := 1536) l r p c

/-- Rows against a 512 x 512 matrix at (r, c): the sum over j of left(r, j) * right(j, c). -/
theorem hw_apply {φ₁ φ₂ : FTy} (l : FVec Ideal S1024x512 φ₁) (r : FVec Ideal S512x512 φ₂) (p : Fin 1024) (c : Fin 512) :
    matmul dot_S1024x512_S512x512_S1024x512_1_0_0_1_n_n none l r (constant (F := Ideal) S1024x512 .f32 0x00000000#32) (ix2 p c)
      = ∑ j : Fin 512, l (ix2 p j) * r (ix2 j c) :=
  Cert.Lib.PlainMatmul.plain_matmul_zero_apply (M := 1024) (K := 512) (N := 512) l r p c

end Cert.Interact.Block

end
-- ==== Proof.BlockProj.lean ====
/-
  The block's projections read at coordinates. The fused product of a stream's 1024 rows (16 token groups of 64) with
  its 256 x 1536 weight matrix, at row t * 64 + n and column c, is the sum over d of the stream's entry (0, t, n, d)
  times the weight (d, c). A window of 512 columns starting at column o, re-laid as 16 groups of 64 rows, is at
  (t, n, h) the projection of token group t by the weight columns o ... o + 511.
-/
import proofs.«168204_j71880572666182_2_alg».proof.Proof.Gen.KernelIdeal.Skeleton
import proofs.«168204_j71880572666182_2_alg».proof.Proof.Spec
import proofs.«168204_j71880572666182_2_alg».proof.Proof.LibSideBySide
import proofs.«168204_j71880572666182_2_alg».proof.Proof.BlockLayout
import proofs.«168204_j71880572666182_2_alg».proof.Proof.BlockMatmul
import Idealize.ShloMosaic.Lib.ValueLayout

noncomputable section

open scoped BigOperators

open Idealize.ShloMosaic Idealize.ShloMosaic.ValueIdx Cert.KernelIdeal Cert.KernelIdeal.Gen Cert.Interact

namespace Cert.Interact.Block

/-- Row n of token group t among the 1024 rows. -/
def rowOf (tl : Fin 16) (n : Fin 64) : Fin 1024 := ⟨tl.val * 64 + n.val, by omega⟩

/-- The fused product at row t * 64 + n and column c. -/
theorem fused_apply (x : Vec Ideal S1x16x64x256 .bf16) (w : Vec Ideal S256x1536 .bf16) (tl : Fin 16) (n : Fin 64) (c : Fin 1536) :
    k0_pay2 (F := Ideal) x w (ix2 (rowOf tl n) c) = ∑ d : Fin 256, x (ix4 0 tl n d) * w (ix2 d c) := by
  show matmul dot_S1024x256_S256x1536_S1024x1536_1_0_0_1_n_n none
      (shapeCast S1024x256 (shapeCast S16x64x256 x shapeCasts_S1x16x64x256_S16x64x256) shapeCasts_S16x64x256_S1024x256)
      (shapeCast S256x1536 w shapeCasts_S256x1536_S256x1536) (constant (F := Ideal) S1024x1536 .f32 0x00000000#32) (ix2 (rowOf tl n) c) = _
  refine (xw_apply _ _ (rowOf tl n) c).trans ?_
  refine Finset.sum_congr rfl fun d _ => ?_
  rw [shapeCast_self]
  exact congrArg (· * w (ix2 d c))
    ((cast_abc_mc_apply _ shapeCasts_S16x64x256_S1024x256 tl n d (rowOf tl n) rfl).trans
      (shapeCast_1abc_abc_apply x shapeCasts_S1x16x64x256_S16x64x256 tl n d))

/-- A 512-column window of the fused product at offset o, re-laid as 16 groups of 64 rows: the projection of
    token group t by the weight columns o ... o + 511. -/
theorem cut_apply (x : Vec Ideal S1x16x64x256 .bf16) (w : Vec Ideal S256x1536 .bf16) (o : Nat) (ho : o + 512 ≤ 1536)
    (hs : S1024x1536.Slices ![0, o] S1024x512) (tl : Fin 16) (n : Fin 64) (h : Fin 512) :
    shapeCast S16x64x512 (truncf .bf16 (extractStridedSlice S1024x512 ![0, o] (k0_pay2 (F := Ideal) x w) hs) bitsLt_bf16_f32)
        shapeCasts_S1024x512_S16x64x512 (ix3 tl n h)
      = proj (blockGroup x tl) (cols o ho w) n h := by
  refine (cast_mc_abc_apply _ shapeCasts_S1024x512_S16x64x512 tl n h (rowOf tl n) rfl).trans ?_
  show extractStridedSlice S1024x512 ![0, o] (k0_pay2 (F := Ideal) x w) hs (ix2 (rowOf tl n) h) = _
  refine (Cert.Lib.SideBySide.colWindow_apply o (k0_pay2 (F := Ideal) x w) hs (rowOf tl n) h (by omega)).trans ?_
  exact fused_apply x w tl n ⟨o + h.val, by omega⟩

/-- The second stream's fused product is the same function of its operands as the first's. -/
theorem pay5_eq (x : Vec Ideal S1x16x64x256 .bf16) (w : Vec Ideal S256x1536 .bf16) :
    k0_pay5 (F := Ideal) x w = k0_pay2 (F := Ideal) x w := rfl

/-- Keys: columns 512 ... 1023. -/
theorem keys_apply (x : Vec Ideal S1x16x64x256 .bf16) (w : Vec Ideal S256x1536 .bf16) (tl : Fin 16) (n : Fin 64) (h : Fin 512) :
    k0_pay3 (F := Ideal) x w (ix3 tl n h) = proj (blockGroup x tl) (cols 512 (by omega) w) n h :=
  cut_apply x w 512 (by omega) slices_S1024x1536_o0_512_S1024x512 tl n h

/-- Values: columns 1024 ... 1535. -/
theorem values_apply (x : Vec Ideal S1x16x64x256 .bf16) (w : Vec Ideal S256x1536 .bf16) (tl : Fin 16) (n : Fin 64) (h : Fin 512) :
    k0_pay4 (F := Ideal) x w (ix3 tl n h) = proj (blockGroup x tl) (cols 1024 (by omega) w) n h :=
  cut_apply x w 1024 (by omega) slices_S1024x1536_o0_1024_S1024x512 tl n h

/-- Queries: columns 0 ... 511. -/
theorem queries_apply (x : Vec Ideal S1x16x64x256 .bf16) (w : Vec Ideal S256x1536 .bf16) (tl : Fin 16) (n : Fin 64) (h : Fin 512) :
    k0_pay6 (F := Ideal) x w (ix3 tl n h) = proj (blockGroup x tl) (cols 0 (by omega) w) n h :=
  cut_apply x w 0 (by omega) slices_S1024x1536_o0_0_S1024x512 tl n h

/-- The second stream's values, as the body names them. -/
theorem values2_apply (x : Vec Ideal S1x16x64x256 .bf16) (w : Vec Ideal S256x1536 .bf16) (tl : Fin 16) (n : Fin 64) (h : Fin 512) :
    k0_pay7 (F := Ideal) x w (ix3 tl n h) = proj (blockGroup x tl) (cols 1024 (by omega) w) n h :=
  cut_apply x w 1024 (by omega) slices_S1024x1536_o0_1024_S1024x512 tl n h

end Cert.Interact.Block

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.BlockSoftmax.lean ====
/-
  The block's row softmax, read at coordinates on the extended reals. On a [16, 64, 64] array of scores the body takes,
  along the last axis, the maximum from minus infinity, subtracts it, exponentiates, sums from zero and divides. At
  (t, n, m) this is the softmax of row n of token group t's 64 x 64 score matrix, at column m.
-/
import proofs.«168204_j71880572666182_2_alg».proof.Proof.Gen.KernelIdeal.Skeleton
import proofs.«168204_j71880572666182_2_alg».proof.Proof.Spec
import proofs.«168204_j71880572666182_2_alg».proof.Proof.LibMaxFold
import proofs.«168204_j71880572666182_2_alg».proof.Proof.BlockLayout
import Idealize.ShloMosaic.PureOps.Ideal.Laws
import Idealize.ShloMosaic.Lib.ValueIdx

noncomputable section

open scoped BigOperators

open Idealize.ShloMosaic Idealize.ShloMosaic.ValueIdx Cert.KernelIdeal Cert.KernelIdeal.Gen Cert.Interact

namespace Cert.Interact.Block

/-- Token group t of a [16, 64, D] array: its 64 rows. -/
def grp {D : Nat} (v : (⟨3, ![16, 64, D]⟩ : Shape).Idx → EReal) (tl : Fin 16) : Mat 64 D := fun n d => v (ix3 tl n d)

/-- Each row's maximum, from minus infinity, laid back over the row. -/
def rowMaxB (S : FVec Ideal S16x64x64 .f32) : FVec Ideal S16x64x64 .f32 :=
  broadcastTo S16x64x64
    (shapeCast S16x64x1 (multiReduction .maximumf [2] S16x64 S 0xFF800000#32 reduces_S16x64x64_S16x64 (.inl rfl) rfl)
      shapeCasts_S16x64_S16x64x1) broadcasts_S16x64x1_S16x64x64

/-- The exponentials of the scores shifted by their row's maximum. -/
def expShift (S : FVec Ideal S16x64x64 .f32) : FVec Ideal S16x64x64 .f32 := exp (subf S (rowMaxB S))

/-- Each row's sum, from zero, laid back over the row. -/
def rowSumB (E : FVec Ideal S16x64x64 .f32) : FVec Ideal S16x64x64 .f32 :=
  broadcastTo S16x64x64
    (shapeCast S16x64x1 (multiReduction .add [2] S16x64 E 0x00000000#32 reduces_S16x64x64_S16x64 (.inl rfl) rfl)
      shapeCasts_S16x64_S16x64x1) broadcasts_S16x64x1_S16x64x64

/-- The body's row softmax. -/
def softRows (S : FVec Ideal S16x64x64 .f32) : FVec Ideal S16x64x64 .f32 := divf (expShift S) (rowSumB (expShift S))

/-- The reduced index (t, n) with the last coordinate k put back is (t, n, k). -/
theorem lift_ix (h : S16x64x64.Reduces [2] S16x64) (tl : Fin 16) (n : Fin 64) (k : Fin 64) :
    h.lift (ix2 tl n) k = ix3 tl n k :=
  funext fun a => Fin.ext (by
    match a with
    | ⟨0, _⟩ => rfl
    | ⟨1, _⟩ => rfl
    | ⟨2, _⟩ => rfl)

theorem rowMaxB_apply (S : FVec Ideal S16x64x64 .f32) (tl : Fin 16) (n m : Fin 64) :
    rowMaxB S (ix3 tl n m) = rowMax (grp S tl) n := by
  unfold rowMaxB
  refine (bcast_ab1_abc_apply _ broadcasts_S16x64x1_S16x64x64 tl n m).trans ?_
  refine (cast_ab_ab1_apply _ shapeCasts_S16x64_S16x64x1 tl n (0 : Fin 1)).trans ?_
  refine (Cert.Lib.MaxFold.maxRed_apply S reduces_S16x64x64_S16x64 (.inl rfl) rfl (ix2 tl n)).trans ?_
  show Finset.fold max ⊥ (fun k : Fin 64 => S (reduces_S16x64x64_S16x64.lift (ix2 tl n) k)) Finset.univ
    = Finset.fold max ⊥ (fun k : Fin 64 => S (ix3 tl n k)) Finset.univ
  exact congrArg (fun f : Fin 64 → EReal => Finset.fold max ⊥ f Finset.univ)
    (funext fun k => congrArg S (lift_ix reduces_S16x64x64_S16x64 tl n k))

theorem expShift_apply (S : FVec Ideal S16x64x64 .f32) (tl : Fin 16) (n m : Fin 64) :
    expShift S (ix3 tl n m) = Ideal.exp (S (ix3 tl n m) - rowMax (grp S tl) n) := by
  show Ideal.exp (S (ix3 tl n m) - rowMaxB S (ix3 tl n m)) = _
  rw [rowMaxB_apply]

theorem rowSumB_apply (E : FVec Ideal S16x64x64 .f32) (tl : Fin 16) (n m : Fin 64) :
    rowSumB E (ix3 tl n m) = ∑ k : Fin 64, E (ix3 tl n k) := by
  unfold rowSumB
  refine (bcast_ab1_abc_apply _ broadcasts_S16x64x1_S16x64x64 tl n m).trans ?_
  refine (cast_ab_ab1_apply _ shapeCasts_S16x64_S16x64x1 tl n (0 : Fin 1)).trans ?_
  refine (Ideal.multiReduction_add_single E 0x00000000#32 reduces_S16x64x64_S16x64 (.inl rfl) rfl (ix2 tl n)).trans ?_
  show ∑ k : Fin 64, E (reduces_S16x64x64_S16x64.lift (ix2 tl n) k) = ∑ k : Fin 64, E (ix3 tl n k)
  exact Finset.sum_congr rfl fun k _ => congrArg E (lift_ix reduces_S16x64x64_S16x64 tl n k)

/-- The body's row softmax at (t, n, m) is the softmax of token group t's score matrix at (n, m). -/
theorem softRows_apply (S : FVec Ideal S16x64x64 .f32) (tl : Fin 16) (n m : Fin 64) :
    softRows S (ix3 tl n m) = soft (grp S tl) n m := by
  show Ideal.div (expShift S (ix3 tl n m)) (rowSumB (expShift S) (ix3 tl n m))
    = Ideal.div (Ideal.exp (S (ix3 tl n m) - rowMax (grp S tl) n))
        (Ideal.ofBits .f32 0x00000000#32 + ∑ m' : Fin 64, Ideal.exp (S (ix3 tl n m') - rowMax (grp S tl) n))
  rw [expShift_apply, rowSumB_apply, Ideal.ofBits_zero_f32, zero_add]
  exact congrArg _ (Finset.sum_congr rfl fun k _ => expShift_apply S tl n k)

end Cert.Interact.Block

end
-- ==== Proof.BlockAttend.lean ====
/-
  One cross attention of the block, read at coordinates. From query, key and value arrays of 16 token groups of 64 rows
  of 512 entries, the body forms each group's scores, takes their row softmax, and mixes the value rows by it. At
  (t, n, f) this is the attention of token group t's queries over its keys and values, at (n, f).
-/
import proofs.«168204_j71880572666182_2_alg».proof.Proof.Gen.KernelIdeal.Skeleton
import proofs.«168204_j71880572666182_2_alg».proof.Proof.Spec
import proofs.«168204_j71880572666182_2_alg».proof.Proof.BlockMatmul
import proofs.«168204_j71880572666182_2_alg».proof.Proof.BlockSoftmax

noncomputable section

open scoped BigOperators

open Idealize.ShloMosaic Idealize.ShloMosaic.ValueIdx Cert.KernelIdeal Cert.KernelIdeal.Gen Cert.Interact

namespace Cert.Interact.Block

/-- The attention weights as the body writes them: the row softmax of the queries against the keys. -/
def weightRows (q k : FVec Ideal S16x64x512 .bf16) : FVec Ideal S16x64x64 .bf16 :=
  truncf .bf16 (softRows (matmul dot_S16x64x512_S16x64x512_S16x64x64_2_2_1_1_0_0 none q k
    (constant (F := Ideal) S16x64x64 .f32 0x00000000#32))) bitsLt_bf16_f32

/-- Attention weights against value rows, as the body writes it. -/
def mixRows (p : FVec Ideal S16x64x64 .bf16) (v : FVec Ideal S16x64x512 .bf16) : FVec Ideal S16x64x512 .bf16 :=
  truncf .bf16 (matmul dot_S16x64x64_S16x64x512_S16x64x512_2_1_1_2_0_0 none p v
    (constant (F := Ideal) S16x64x512 .f32 0x00000000#32)) bitsLt_bf16_f32

/-- Token group t's scores. -/
theorem scores_grp (q k : FVec Ideal S16x64x512 .bf16) (tl : Fin 16) :
    grp (matmul dot_S16x64x512_S16x64x512_S16x64x64_2_2_1_1_0_0 none q k (constant (F := Ideal) S16x64x64 .f32 0x00000000#32)) tl
      = scores (grp q tl) (grp k tl) :=
  funext fun n => funext fun m => qk_apply q k tl n m

/-- Token group t's attention weights. -/
theorem weightRows_apply (q k : FVec Ideal S16x64x512 .bf16) (tl : Fin 16) (n m : Fin 64) :
    weightRows q k (ix3 tl n m) = soft (scores (grp q tl) (grp k tl)) n m := by
  show softRows (matmul dot_S16x64x512_S16x64x512_S16x64x64_2_2_1_1_0_0 none q k
    (constant (F := Ideal) S16x64x64 .f32 0x00000000#32)) (ix3 tl n m) = _
  rw [softRows_apply, scores_grp]

/-- The mix at (t, n, f): the sum over m of the weights (t, n, m) times the values (t, m, f). -/
theorem mixRows_apply (p : FVec Ideal S16x64x64 .bf16) (v : FVec Ideal S16x64x512 .bf16) (tl : Fin 16) (n : Fin 64) (f : Fin 512) :
    mixRows p v (ix3 tl n f) = ∑ m : Fin 64, p (ix3 tl n m) * v (ix3 tl m f) :=
  pv_apply p v tl n f

/-- One cross attention at (t, n, f). -/
theorem attn_apply (q k v : FVec Ideal S16x64x512 .bf16) (tl : Fin 16) (n : Fin 64) (f : Fin 512) :
    mixRows (weightRows q k) v (ix3 tl n f) = attend (grp q tl) (grp k tl) (grp v tl) n f := by
  refine (mixRows_apply _ v tl n f).trans ?_
  show ∑ m : Fin 64, weightRows q k (ix3 tl n m) * v (ix3 tl m f)
    = ∑ m : Fin 64, soft (scores (grp q tl) (grp k tl)) n m * v (ix3 tl m f)
  exact Finset.sum_congr rfl fun m _ => congrArg (· * v (ix3 tl m f)) (weightRows_apply q k tl n m)

end Cert.Interact.Block

end
-- ==== Proof.BlockTail.lean ====
/-
  The block's feed-forward tail, read at coordinates. The two attention results, flattened to 1024 rows, go through the
  two halves of the first weight matrix, a bias row and a rectifier into 512 hidden units; a second matrix and bias row
  give the output, re-laid as 16 token groups of 64 rows. At (t, n, k) this is the affine map of token group t's hidden
  layer at (n, k).
-/
import proofs.«168204_j71880572666182_2_alg».proof.Proof.Gen.KernelIdeal.Skeleton
import proofs.«168204_j71880572666182_2_alg».proof.Proof.Spec
import proofs.«168204_j71880572666182_2_alg».proof.Proof.BlockLayout
import proofs.«168204_j71880572666182_2_alg».proof.Proof.BlockMatmul
import proofs.«168204_j71880572666182_2_alg».proof.Proof.BlockSoftmax
import Idealize.ShloMosaic.Lib.ValueLayout

noncomputable section

open scoped BigOperators

open Idealize.ShloMosaic Idealize.ShloMosaic.ValueIdx Cert.KernelIdeal Cert.KernelIdeal.Gen Cert.Interact

namespace Cert.Interact.Block

/-- The hidden layer as the body writes it, on 1024 rows. -/
def hiddenRows (a1 a2 : FVec Ideal S16x64x512 .bf16) (x4 x5 : Vec Ideal S512x512 .bf16) (x6 : Vec Ideal S1x512 .f32) :
    FVec Ideal S1024x512 .bf16 :=
  truncf .bf16
    (maximumf
      (addf
        (addf
          (matmul (φ₂ := .bf16) dot_S1024x512_S512x512_S1024x512_1_0_0_1_n_n none (shapeCast S1024x512 a1 shapeCasts_S16x64x512_S1024x512)
            (shapeCast S512x512 x4 shapeCasts_S512x512_S512x512) (constant (F := Ideal) S1024x512 .f32 0x00000000#32))
          (matmul (φ₂ := .bf16) dot_S1024x512_S512x512_S1024x512_1_0_0_1_n_n none (shapeCast S1024x512 a2 shapeCasts_S16x64x512_S1024x512)
            (shapeCast S512x512 x5 shapeCasts_S512x512_S512x512) (constant (F := Ideal) S1024x512 .f32 0x00000000#32)))
        (broadcastTo S1024x512 (shapeCast S1x512 x6 shapeCasts_S1x512_S1x512) broadcasts_S1x512_S1024x512))
      (broadcast S1024x512 (Scalar.ofBits (F := Ideal) .f32 0x00000000#32))) bitsLt_bf16_f32

/-- The output as the body writes it, from the hidden layer. -/
def outRows (hd : FVec Ideal S1024x512 .bf16) (x7 : Vec Ideal S512x512 .bf16) (x8 : Vec Ideal S1x512 .f32) :
    FVec Ideal S16x64x512 .f32 :=
  shapeCast S16x64x512
    (addf
      (matmul (φ₂ := .bf16) dot_S1024x512_S512x512_S1024x512_1_0_0_1_n_n none hd (shapeCast S512x512 x7 shapeCasts_S512x512_S512x512)
        (constant (F := Ideal) S1024x512 .f32 0x00000000#32))
      (broadcastTo S1024x512 (shapeCast S1x512 x8 shapeCasts_S1x512_S1x512) broadcasts_S1x512_S1024x512))
    shapeCasts_S1024x512_S16x64x512

/-- A flattened attention result against a 512 x 512 matrix, at row t * 64 + n. -/
theorem half_apply (a : FVec Ideal S16x64x512 .bf16) (x : Vec Ideal S512x512 .bf16) (tl : Fin 16) (n : Fin 64) (j : Fin 512)
    (r : Fin 1024) (hr : r.val = tl.val * 64 + n.val) :
    matmul (φ₂ := .bf16) dot_S1024x512_S512x512_S1024x512_1_0_0_1_n_n none (shapeCast S1024x512 a shapeCasts_S16x64x512_S1024x512)
        (shapeCast S512x512 x shapeCasts_S512x512_S512x512) (constant (F := Ideal) S1024x512 .f32 0x00000000#32) (ix2 r j)
      = ∑ f : Fin 512, grp a tl n f * mat x f j := by
  refine (hw_apply _ _ r j).trans ?_
  refine Finset.sum_congr rfl fun f _ => ?_
  rw [shapeCast_self]
  exact congrArg (· * x (ix2 f j)) (cast_abc_mc_apply a shapeCasts_S16x64x512_S1024x512 tl n f r hr)

/-- A bias row laid over 1024 rows reads its entry at the column. -/
theorem bias_apply (b : Vec Ideal S1x512 .f32) (r : Fin 1024) (j : Fin 512) :
    broadcastTo S1024x512 (shapeCast S1x512 b shapeCasts_S1x512_S1x512) broadcasts_S1x512_S1024x512 (ix2 r j) = row b j := by
  rw [shapeCast_self]
  exact broadcastTo_1b_ab_apply b broadcasts_S1x512_S1024x512 r j

/-- The hidden layer at row t * 64 + n. -/
theorem hiddenRows_apply (a1 a2 : FVec Ideal S16x64x512 .bf16) (x4 x5 : Vec Ideal S512x512 .bf16) (x6 : Vec Ideal S1x512 .f32)
    (tl : Fin 16) (n : Fin 64) (j : Fin 512) (r : Fin 1024) (hr : r.val = tl.val * 64 + n.val) :
    hiddenRows a1 a2 x4 x5 x6 (ix2 r j) = hidden (grp a1 tl) (grp a2 tl) (mat x4) (mat x5) (row x6) n j := by
  show max
      ((matmul (φ₂ := .bf16) dot_S1024x512_S512x512_S1024x512_1_0_0_1_n_n none (shapeCast S1024x512 a1 shapeCasts_S16x64x512_S1024x512)
            (shapeCast S512x512 x4 shapeCasts_S512x512_S512x512) (constant (F := Ideal) S1024x512 .f32 0x00000000#32) (ix2 r j)
          + matmul (φ₂ := .bf16) dot_S1024x512_S512x512_S1024x512_1_0_0_1_n_n none (shapeCast S1024x512 a2 shapeCasts_S16x64x512_S1024x512)
            (shapeCast S512x512 x5 shapeCasts_S512x512_S512x512) (constant (F := Ideal) S1024x512 .f32 0x00000000#32) (ix2 r j))
        + broadcastTo S1024x512 (shapeCast S1x512 x6 shapeCasts_S1x512_S1x512) broadcasts_S1x512_S1024x512 (ix2 r j))
      (Ideal.ofBits .f32 0x00000000#32)
    = max (((∑ f : Fin 512, grp a1 tl n f * mat x4 f j) + (∑ f : Fin 512, grp a2 tl n f * mat x5 f j)) + row x6 j)
        (Ideal.ofBits .f32 0x00000000#32)
  rw [half_apply a1 x4 tl n j r hr, half_apply a2 x5 tl n j r hr, bias_apply]

/-- The output at (t, n, k). -/
theorem outRows_apply (hd : FVec Ideal S1024x512 .bf16) (x7 : Vec Ideal S512x512 .bf16) (x8 : Vec Ideal S1x512 .f32)
    (tl : Fin 16) (n : Fin 64) (k : Fin 512) (r : Fin 1024) (hr : r.val = tl.val * 64 + n.val) :
    outRows hd x7 x8 (ix3 tl n k) = (∑ j : Fin 512, hd (ix2 r j) * mat x7 j k) + row x8 k := by
  unfold outRows
  refine (cast_mc_abc_apply _ shapeCasts_S1024x512_S16x64x512 tl n k r hr).trans ?_
  show matmul (φ₂ := .bf16) dot_S1024x512_S512x512_S1024x512_1_0_0_1_n_n none hd (shapeCast S512x512 x7 shapeCasts_S512x512_S512x512)
        (constant (F := Ideal) S1024x512 .f32 0x00000000#32) (ix2 r k)
      + broadcastTo S1024x512 (shapeCast S1x512 x8 shapeCasts_S1x512_S1x512) broadcasts_S1x512_S1024x512 (ix2 r k) = _
  rw [bias_apply, hw_apply, shapeCast_self]
  rfl

/-- The tail at (t, n, k): the affine map of token group t's hidden layer. -/
theorem tail_apply (a1 a2 : FVec Ideal S16x64x512 .bf16) (x4 x5 : Vec Ideal S512x512 .bf16) (x6 : Vec Ideal S1x512 .f32)
    (x7 : Vec Ideal S512x512 .bf16) (x8 : Vec Ideal S1x512 .f32) (tl : Fin 16) (n : Fin 64) (k : Fin 512) :
    outRows (hiddenRows a1 a2 x4 x5 x6) x7 x8 (ix3 tl n k)
      = affine (hidden (grp a1 tl) (grp a2 tl) (mat x4) (mat x5) (row x6)) (mat x7) (row x8) n k := by
  refine (outRows_apply _ x7 x8 tl n k ⟨tl.val * 64 + n.val, by omega⟩ rfl).trans ?_
  show (∑ j : Fin 512, hiddenRows a1 a2 x4 x5 x6 (ix2 ⟨tl.val * 64 + n.val, by omega⟩ j) * mat x7 j k) + row x8 k
    = (∑ j : Fin 512, hidden (grp a1 tl) (grp a2 tl) (mat x4) (mat x5) (row x6) n j * mat x7 j k) + row x8 k
  exact congrArg (· + row x8 k) (Finset.sum_congr rfl fun j _ =>
    congrArg (· * mat x7 j k) (hiddenRows_apply a1 a2 x4 x5 x6 tl n j ⟨tl.val * 64 + n.val, by omega⟩ rfl))

end Cert.Interact.Block

end
-- ==== Proof.BlockValue.lean ====
/-
  The block's value at an index. The stored value at (0, t, n, k) is entry (n, k) of token group t's result: the six
  projections of the two streams' rows, the two cross attentions, the hidden layer and the output map, as the
  specification composes them.
-/
import proofs.«168204_j71880572666182_2_alg».proof.Proof.Gen.KernelIdeal.Skeleton
import proofs.«168204_j71880572666182_2_alg».proof.Proof.Spec
import proofs.«168204_j71880572666182_2_alg».proof.Proof.BlockProj
import proofs.«168204_j71880572666182_2_alg».proof.Proof.BlockAttend
import proofs.«168204_j71880572666182_2_alg».proof.Proof.BlockTail
import Idealize.ShloMosaic.Lib.ValueLayout

noncomputable section

open scoped BigOperators

open Idealize.ShloMosaic Idealize.ShloMosaic.ValueIdx Cert.KernelIdeal Cert.KernelIdeal.Gen Cert.Interact

namespace Cert.Interact.Block

/-- The stored array's entry (0, t, n, k) is the result's entry (t, n, k). -/
theorem pay1_apply (v : FVec Ideal S16x64x512 .f32) (tl : Fin 16) (n : Fin 64) (k : Fin 512) :
    k0_pay1 (F := Ideal) v (ix4 0 tl n k) = v (ix3 tl n k) :=
  shapeCast_abc_1abc_apply v shapeCasts_S16x64x512_S1x16x64x512 (0 : Fin 1) tl n k

/-- The first attention's weights: stream 1's queries against stream 2's keys. -/
theorem pay8_eq (x0 x1 : Vec Ideal S1x16x64x256 .bf16) (x2 x3 : Vec Ideal S256x1536 .bf16) :
    k0_pay8 (F := Ideal) x0 x1 x2 x3 = weightRows (k0_pay6 (F := Ideal) x0 x2) (k0_pay3 (F := Ideal) x1 x3) := rfl

/-- The rest of the body: the first mix, the second attention, the hidden layer and the output. -/
theorem pay9_eq (v16 v19 v23 v29 : FVec Ideal S16x64x512 .bf16) (v40 : FVec Ideal S16x64x64 .bf16)
    (x4 x5 : Vec Ideal S512x512 .bf16) (x6 : Vec Ideal S1x512 .f32) (x7 : Vec Ideal S512x512 .bf16) (x8 : Vec Ideal S1x512 .f32) :
    k0_pay9 (F := Ideal) v16 v19 v23 v29 v40 x4 x5 x6 x7 x8
      = outRows (hiddenRows (mixRows v40 v19) (mixRows (weightRows v23 v16) v29) x4 x5 x6) x7 x8 := rfl

/-- Token group t of the four cuts the body keeps. -/
theorem grp_keys (x : Vec Ideal S1x16x64x256 .bf16) (w : Vec Ideal S256x1536 .bf16) (tl : Fin 16) :
    grp (k0_pay3 (F := Ideal) x w) tl = proj (blockGroup x tl) (cols 512 (by omega) w) :=
  funext fun n => funext fun h => keys_apply x w tl n h
theorem grp_values (x : Vec Ideal S1x16x64x256 .bf16) (w : Vec Ideal S256x1536 .bf16) (tl : Fin 16) :
    grp (k0_pay4 (F := Ideal) x w) tl = proj (blockGroup x tl) (cols 1024 (by omega) w) :=
  funext fun n => funext fun h => values_apply x w tl n h
theorem grp_queries (x : Vec Ideal S1x16x64x256 .bf16) (w : Vec Ideal S256x1536 .bf16) (tl : Fin 16) :
    grp (k0_pay6 (F := Ideal) x w) tl = proj (blockGroup x tl) (cols 0 (by omega) w) :=
  funext fun n => funext fun h => queries_apply x w tl n h
theorem grp_values2 (x : Vec Ideal S1x16x64x256 .bf16) (w : Vec Ideal S256x1536 .bf16) (tl : Fin 16) :
    grp (k0_pay7 (F := Ideal) x w) tl = proj (blockGroup x tl) (cols 1024 (by omega) w) :=
  funext fun n => funext fun h => values2_apply x w tl n h

/-- Token group t of one attention of the body: the attention of the group's projections. -/
theorem grp_attn (q k v : FVec Ideal S16x64x512 .bf16) (tl : Fin 16) :
    grp (mixRows (weightRows q k) v) tl = attend (grp q tl) (grp k tl) (grp v tl) :=
  funext fun n => funext fun f => attn_apply q k v tl n f

end Cert.Interact.Block

open Idealize.ShloMosaic Idealize.ShloMosaic.ValueIdx Cert.KernelIdeal Cert.KernelIdeal.Gen Cert.Interact in
theorem Cert.Interact.Block.payload_at [Cert.KernelIdeal.Facts]
    (x0 x1 : Vec Ideal S1x16x64x256 .bf16) (x2 x3 : Vec Ideal S256x1536 .bf16) (x4 x5 : Vec Ideal S512x512 .bf16)
    (x6 : Vec Ideal S1x512 .f32) (x7 : Vec Ideal S512x512 .bf16) (x8 : Vec Ideal S1x512 .f32)
    (tl : Fin 16) (n : Fin 64) (k : Fin 512) :
    k0_pay1 (F := Ideal) (k0_pay9 (k0_pay3 x0 x2) (k0_pay4 x0 x2) (k0_pay6 x1 x3) (k0_pay7 x1 x3) (k0_pay8 x0 x1 x2 x3) x4 x5 x6 x7 x8) (ix4 0 tl n k)
      = fromProjections
          (proj (blockGroup x0 tl) (cols 0 (by omega) x2)) (proj (blockGroup x0 tl) (cols 512 (by omega) x2)) (proj (blockGroup x0 tl) (cols 1024 (by omega) x2))
          (proj (blockGroup x1 tl) (cols 0 (by omega) x3)) (proj (blockGroup x1 tl) (cols 512 (by omega) x3)) (proj (blockGroup x1 tl) (cols 1024 (by omega) x3))
          (mat x4) (mat x5) (row x6) (mat x7) (row x8) n k := by
  refine (Cert.Interact.Block.pay1_apply _ tl n k).trans ?_
  rw [Cert.Interact.Block.pay9_eq, Cert.Interact.Block.pay8_eq]
  refine (Cert.Interact.Block.tail_apply _ _ x4 x5 x6 x7 x8 tl n k).trans ?_
  rw [Cert.Interact.Block.grp_attn, Cert.Interact.Block.grp_attn, Cert.Interact.Block.grp_queries, Cert.Interact.Block.grp_queries,
    Cert.Interact.Block.grp_keys, Cert.Interact.Block.grp_keys, Cert.Interact.Block.grp_values, Cert.Interact.Block.grp_values2]
  rfl

end
-- ==== Proof.KernelWhole.lean ====
/-
  The whole result array after the run, on the extended reals: entry (b, t, n, k) is entry (n, k) of token group (b, t)'s
  cross-attention block of the argument arrays.

  The region's grid is 16 x 8; grid point (b, s) stages, of each token array, the 16 token groups (b, 16 s .. 16 s + 15),
  every weight matrix and bias row whole, and writes back the result's 16 token groups (b, 16 s .. 16 s + 15). What a point
  writes back is the body's value of the staged blocks; read at block coordinates (0, tl, n, k) that value is the group
  function of group tl of the two token blocks and the staged weights (the body's value at an index), the token blocks'
  group tl is the arrays' group (b, 16 s + tl), and the staged weights are what the host line made of the argument
  matrices. So each point writes back its block of ONE whole-array function. The 128 blocks tile the result array (token
  group (b, t) lies in the block of point (b, t / 16)), so the array ends as that function.
-/
import proofs.«168204_j71880572666182_2_alg».proof.Proof.HostPrefix
import proofs.«168204_j71880572666182_2_alg».proof.Proof.BlockValue

set_option maxRecDepth 16384

noncomputable section

namespace Cert.KernelIdeal.Whole

open Cert.KernelIdeal Cert.KernelIdeal.Gen Cert.KernelIdeal.Frame Cert.Interact
open Idealize.ShloMosaic Idealize.ShloMosaic.TcCoe Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

/-- The whole-array function of the argument arrays. -/
abbrev G (c : Dev nD) : S16x128x64x512.Idx → EReal :=
  wholeW (arr0 m c) (arr1 m c) (arr2 m c) (arr3 m c) (arr4 m c) (arr5 m c) (arr6 m c) (arr7 m c) (arr8 m c) (arr9 m c)
    (arr10 m c) (arr11 m c)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps, decided over the grid: the two token windows move with the result window on the two leading axes, every
    other block index is zero, and the result's block indices stay in range. -/
theorem idx_facts : ∀ t : Fin cfg0.N,
    win0_0.index t (0 : Fin 4) = win0_9.index t (0 : Fin 4) ∧ win0_0.index t (1 : Fin 4) = win0_9.index t (1 : Fin 4)
    ∧ win0_0.index t (2 : Fin 4) = 0 ∧ win0_0.index t (3 : Fin 4) = 0
    ∧ win0_1.index t (0 : Fin 4) = win0_9.index t (0 : Fin 4) ∧ win0_1.index t (1 : Fin 4) = win0_9.index t (1 : Fin 4)
    ∧ win0_1.index t (2 : Fin 4) = 0 ∧ win0_1.index t (3 : Fin 4) = 0
    ∧ win0_9.index t (2 : Fin 4) = 0 ∧ win0_9.index t (3 : Fin 4) = 0
    ∧ win0_9.index t (0 : Fin 4) ≤ 15 ∧ win0_9.index t (1 : Fin 4) ≤ 7 :=
  (by decide +kernel : ∀ t : Fin grid0.N, _)

theorem idx_zero : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every block of the result array is some point's. -/
theorem idx_onto : ∀ (q0 : Fin 16) (q1 : Fin 8), ∃ t : Fin cfg0.N, win0_9.index t = ![q0.val, q1.val, 0, 0] :=
  (by decide +kernel : ∀ (q0 : Fin 16) (q1 : Fin 8), ∃ t : Fin grid0.N, win0_9.index t = ![q0.val, q1.val, 0, 0])

/-- The batch coordinate of point `t`'s blocks. -/
def bOf (t : Fin cfg0.N) : Fin 16 := ⟨win0_9.index t (0 : Fin 4), by have := idx_facts t; omega⟩
/-- The token-group coordinate of group `tl` of point `t`'s blocks. -/
def tOf (t : Fin cfg0.N) (tl : Fin 16) : Fin 128 := ⟨win0_9.index t (1 : Fin 4) * 16 + tl.val, by have := idx_facts t; omega⟩

/-! ## The staged blocks, read off the arrays -/

/-- Group `tl` of point `t`'s block of token array 1 is the array's group `(b, 16 s + tl)`. -/
theorem tok0 (c : Dev nD) (t : Fin cfg0.N) (tl : Fin 16) :
    blockGroup (iblk m c 0 t) tl = group (arr0 m c) (bOf t) (tOf t tl) := by
  funext n d
  obtain ⟨e0, e1, e2, e3, -⟩ := idx_facts t
  show V m c main_v0 (((cfg0.win 0).blk t).view.emb (ix4 0 tl n d)) = arr0 m c (ix4 (bOf t) (tOf t tl) n d)
  have h : ((cfg0.win 0).blk t).view.emb (ix4 0 tl n d) = ix4 (bOf t) (tOf t tl) n d := by
    funext a; apply Fin.ext
    match a with
    | ⟨0, _⟩ => show win0_0.index t (0 : Fin 4) * 1 + 1 * 0 = win0_9.index t (0 : Fin 4); omega
    | ⟨1, _⟩ => show win0_0.index t (1 : Fin 4) * 16 + 1 * tl.val = win0_9.index t (1 : Fin 4) * 16 + tl.val; omega
    | ⟨2, _⟩ => show win0_0.index t (2 : Fin 4) * 64 + 1 * n.val = n.val; omega
    | ⟨3, _⟩ => show win0_0.index t (3 : Fin 4) * 256 + 1 * d.val = d.val; omega
  rw [h, V_eq_E]; exact x1_read m c _

/-- Group `tl` of point `t`'s block of token array 2 is the array's group `(b, 16 s + tl)`. -/
theorem tok1 (c : Dev nD) (t : Fin cfg0.N) (tl : Fin 16) :
    blockGroup (iblk m c 1 t) tl = group (arr1 m c) (bOf t) (tOf t tl) := by
  funext n d
  obtain ⟨-, -, -, -, e0, e1, e2, e3, -⟩ := idx_facts t
  show V m c main_v1 (((cfg0.win 1).blk t).view.emb (ix4 0 tl n d)) = arr1 m c (ix4 (bOf t) (tOf t tl) n d)
  have h : ((cfg0.win 1).blk t).view.emb (ix4 0 tl n d) = ix4 (bOf t) (tOf t tl) n d := by
    funext a; apply Fin.ext
    match a with
    | ⟨0, _⟩ => show win0_1.index t (0 : Fin 4) * 1 + 1 * 0 = win0_9.index t (0 : Fin 4); omega
    | ⟨1, _⟩ => show win0_1.index t (1 : Fin 4) * 16 + 1 * tl.val = win0_9.index t (1 : Fin 4) * 16 + tl.val; omega
    | ⟨2, _⟩ => show win0_1.index t (2 : Fin 4) * 64 + 1 * n.val = n.val; omega
    | ⟨3, _⟩ => show win0_1.index t (3 : Fin 4) * 256 + 1 * d.val = d.val; omega
  rw [h, V_eq_E]; exact x2_read m c _

/-- Window 2 stages its whole array at every point. -/
theorem whole2 (c : Dev nD) (t : Fin cfg0.N) (y : S256x1536.Idx) : iblk m c 2 t y = E m c (Proc.devRef .tc main_v5) y := by
  obtain ⟨z2a, z2b, z3a, z3b, z4a, z4b, z5a, z5b, z6a, z6b, z7a, z7b, z8a, z8b⟩ := idx_zero t
  show V m c main_v5 (((cfg0.win 2).blk t).view.emb y) = _
  have h : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 1536 + 1 * (y 1).val = (y 1).val; omega
  rw [h]; rfl

/-- Window 3 stages its whole array at every point. -/
theorem whole3 (c : Dev nD) (t : Fin cfg0.N) (y : S256x1536.Idx) : iblk m c 3 t y = E m c (Proc.devRef .tc main_v9) y := by
  obtain ⟨z2a, z2b, z3a, z3b, z4a, z4b, z5a, z5b, z6a, z6b, z7a, z7b, z8a, z8b⟩ := idx_zero t
  show V m c main_v9 (((cfg0.win 3).blk t).view.emb y) = _
  have h : ((cfg0.win 3).blk t).view.emb y = y := by
    funext a; apply Fin.ext
    match a with
    | ⟨0, _⟩ => show win0_3.index t (0 : Fin 2) * 256 + 1 * (y 0).val = (y 0).val; omega
    | ⟨1, _⟩ => show win0_3.index t (1 : Fin 2) * 1536 + 1 * (y 1).val = (y 1).val; omega
  rw [h]; rfl

/-- Window 4 stages its whole array at every point. -/
theorem whole4 (c : Dev nD) (t : Fin cfg0.N) (y : S512x512.Idx) : iblk m c 4 t y = E m c (Proc.devRef .tc main_v11) y := by
  obtain ⟨z2a, z2b, z3a, z3b, z4a, z4b, z5a, z5b, z6a, z6b, z7a, z7b, z8a, z8b⟩ := idx_zero t
  show V m c main_v11 (((cfg0.win 4).blk t).view.emb y) = _
  have h : ((cfg0.win 4).blk t).view.emb y = y := by
    funext a; apply Fin.ext
    match a with
    | ⟨0, _⟩ => show win0_4.index t (0 : Fin 2) * 512 + 1 * (y 0).val = (y 0).val; omega
    | ⟨1, _⟩ => show win0_4.index t (1 : Fin 2) * 512 + 1 * (y 1).val = (y 1).val; omega
  rw [h]; rfl

/-- Window 5 stages its whole array at every point. -/
theorem whole5 (c : Dev nD) (t : Fin cfg0.N) (y : S512x512.Idx) : iblk m c 5 t y = E m c (Proc.devRef .tc main_v13) y := by
  obtain ⟨z2a, z2b, z3a, z3b, z4a, z4b, z5a, z5b, z6a, z6b, z7a, z7b, z8a, z8b⟩ := idx_zero t
  show V m c main_v13 (((cfg0.win 5).blk t).view.emb y) = _
  have h : ((cfg0.win 5).blk t).view.emb y = y := by
    funext a; apply Fin.ext
    match a with
    | ⟨0, _⟩ => show win0_5.index t (0 : Fin 2) * 512 + 1 * (y 0).val = (y 0).val; omega
    | ⟨1, _⟩ => show win0_5.index t (1 : Fin 2) * 512 + 1 * (y 1).val = (y 1).val; omega
  rw [h]; rfl

/-- Window 6 stages its whole array at every point. -/
theorem whole6 (c : Dev nD) (t : Fin cfg0.N) (y : S1x512.Idx) : iblk m c 6 t y = E m c (Proc.devRef .tc main_v15) y := by
  obtain ⟨z2a, z2b, z3a, z3b, z4a, z4b, z5a, z5b, z6a, z6b, z7a, z7b, z8a, z8b⟩ := idx_zero t
  show V m c main_v15 (((cfg0.win 6).blk t).view.emb y) = _
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 512 + 1 * (y 1).val = (y 1).val; omega
  rw [h]; rfl

/-- Window 7 stages its whole array at every point. -/
theorem whole7 (c : Dev nD) (t : Fin cfg0.N) (y : S512x512.Idx) : iblk m c 7 t y = E m c (Proc.devRef .tc main_v14) y := by
  obtain ⟨z2a, z2b, z3a, z3b, z4a, z4b, z5a, z5b, z6a, z6b, z7a, z7b, z8a, z8b⟩ := idx_zero t
  show V m c main_v14 (((cfg0.win 7).blk t).view.emb y) = _
  have h : ((cfg0.win 7).blk t).view.emb y = y := by
    funext a; apply Fin.ext
    match a with
    | ⟨0, _⟩ => show win0_7.index t (0 : Fin 2) * 512 + 1 * (y 0).val = (y 0).val; omega
    | ⟨1, _⟩ => show win0_7.index t (1 : Fin 2) * 512 + 1 * (y 1).val = (y 1).val; omega
  rw [h]; rfl

/-- Window 8 stages its whole array at every point. -/
theorem whole8 (c : Dev nD) (t : Fin cfg0.N) (y : S1x512.Idx) : iblk m c 8 t y = E m c (Proc.devRef .tc main_v16) y := by
  obtain ⟨z2a, z2b, z3a, z3b, z4a, z4b, z5a, z5b, z6a, z6b, z7a, z7b, z8a, z8b⟩ := idx_zero t
  show V m c main_v16 (((cfg0.win 8).blk t).view.emb y) = _
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 512 + 1 * (y 1).val = (y 1).val; omega
  rw [h]; rfl

/-! ## The staged weights as matrices of the argument arrays -/

theorem wq1 (c : Dev nD) (t : Fin cfg0.N) : cols 0 (by omega) (iblk m c 2 t) = scaled (mat (arr2 m c)) := by
  funext d h
  show iblk m c 2 t (ix2 d ⟨0 + h.val, by omega⟩) = arr2 m c (ix2 d h) * scale
  rw [whole2]; exact wq1_read m c d h
theorem wk1 (c : Dev nD) (t : Fin cfg0.N) : cols 512 (by omega) (iblk m c 2 t) = mat (arr3 m c) := by
  funext d h
  show iblk m c 2 t (ix2 d ⟨512 + h.val, by omega⟩) = arr3 m c (ix2 d h)
  rw [whole2]; exact wk1_read m c d h
theorem wv1 (c : Dev nD) (t : Fin cfg0.N) : cols 1024 (by omega) (iblk m c 2 t) = mat (arr4 m c) := by
  funext d h
  show iblk m c 2 t (ix2 d ⟨1024 + h.val, by omega⟩) = arr4 m c (ix2 d h)
  rw [whole2]; exact wv1_read m c d h
theorem wq2 (c : Dev nD) (t : Fin cfg0.N) : cols 0 (by omega) (iblk m c 3 t) = scaled (mat (arr5 m c)) := by
  funext d h
  show iblk m c 3 t (ix2 d ⟨0 + h.val, by omega⟩) = arr5 m c (ix2 d h) * scale
  rw [whole3]; exact wq2_read m c d h
theorem wk2 (c : Dev nD) (t : Fin cfg0.N) : cols 512 (by omega) (iblk m c 3 t) = mat (arr6 m c) := by
  funext d h
  show iblk m c 3 t (ix2 d ⟨512 + h.val, by omega⟩) = arr6 m c (ix2 d h)
  rw [whole3]; exact wk2_read m c d h
theorem wv2 (c : Dev nD) (t : Fin cfg0.N) : cols 1024 (by omega) (iblk m c 3 t) = mat (arr7 m c) := by
  funext d h
  show iblk m c 3 t (ix2 d ⟨1024 + h.val, by omega⟩) = arr7 m c (ix2 d h)
  rw [whole3]; exact wv2_read m c d h
theorem w1a (c : Dev nD) (t : Fin cfg0.N) : mat (iblk m c 4 t) = top (mat (arr8 m c)) := by
  funext f j
  show iblk m c 4 t (ix2 f j) = arr8 m c (ix2 ⟨f.val, by omega⟩ j)
  rw [whole4]; exact w1a_read m c f j
theorem w1b (c : Dev nD) (t : Fin cfg0.N) : mat (iblk m c 5 t) = bottom (mat (arr8 m c)) := by
  funext f j
  show iblk m c 5 t (ix2 f j) = arr8 m c (ix2 ⟨512 + f.val, by omega⟩ j)
  rw [whole5]; exact w1b_read m c f j
theorem b1 (c : Dev nD) (t : Fin cfg0.N) : row (iblk m c 6 t) = vec (arr9 m c) := by
  funext j
  show iblk m c 6 t (ix2 0 j) = arr9 m c (ix1 j)
  rw [whole6]; exact b1_read m c j
theorem w2 (c : Dev nD) (t : Fin cfg0.N) : mat (iblk m c 7 t) = mat (arr10 m c) := by
  funext f j
  show iblk m c 7 t (ix2 f j) = arr10 m c (ix2 f j)
  rw [whole7]; exact w2_read m c _
theorem b2 (c : Dev nD) (t : Fin cfg0.N) : row (iblk m c 8 t) = vec (arr11 m c) := by
  funext j
  show iblk m c 8 t (ix2 0 j) = arr11 m c (ix1 j)
  rw [whole8]; exact b2_read m c j

/-! ## What a point writes back -/

/-- Point `t` writes back block `t` of the whole-array function. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after9]
  unfold out9
  rw [View.canon_unit_zero hz4]
  simp only [View.ld_unit_zero (S := S1x16x64x256) hz4, View.ld_unit_zero (S := S256x1536) hz2,
    View.ld_unit_zero (S := S512x512) hz2, View.ld_unit_zero (S := S1x512) hz2]
  funext j
  obtain ⟨z, tl, n, k, rfl⟩ : ∃ (z : Fin 1) (tl : Fin 16) (n : Fin 64) (k : Fin 512), j = ix4 z tl n k :=
    ⟨j 0, j 1, j 2, j 3, eq_ix4 j⟩
  obtain rfl : z = 0 := Subsingleton.elim _ _
  obtain ⟨-, -, -, -, -, -, -, -, e2, e3, -⟩ := idx_facts t
  have hemb : ((cfg0.win 9).blk t).view.emb (ix4 0 tl n k) = ix4 (bOf t) (tOf t tl) n k := by
    funext a; apply Fin.ext
    match a with
    | ⟨0, _⟩ => show win0_9.index t (0 : Fin 4) * 1 + 1 * 0 = win0_9.index t (0 : Fin 4); omega
    | ⟨1, _⟩ => show win0_9.index t (1 : Fin 4) * 16 + 1 * tl.val = win0_9.index t (1 : Fin 4) * 16 + tl.val; omega
    | ⟨2, _⟩ => show win0_9.index t (2 : Fin 4) * 64 + 1 * n.val = n.val; omega
    | ⟨3, _⟩ => show win0_9.index t (3 : Fin 4) * 512 + 1 * k.val = k.val; omega
  refine (Cert.Interact.Block.payload_at _ _ _ _ _ _ _ _ _ tl n k).trans ?_
  show _ = G m c (((cfg0.win 9).blk t).view.emb (ix4 0 tl n k))
  rw [hemb]
  unfold G
  rw [wholeW_apply]
  unfold groupW
  rw [tok0, tok1, wq1, wk1, wv1, wq2, wk2, wv2, w1a, w1b, b1, w2, b2]

/-! ## The blocks tile the array -/

/-- An index of the result array is in point `t`'s block iff each coordinate is in the block's range on its axis. -/
theorem mem_blk (t : Fin cfg0.N) (i : S16x128x64x512.Idx) :
    i ∈ ((cfg0.win 9).blk t).view.set ↔ ∀ a : Fin 4, win0_9.index t a * S1x16x64x512.size a ≤ (i a).val ∧ (i a).val < win0_9.index t a * S1x16x64x512.size a + S1x16x64x512.size a := by
  show i ∈ ((View.whole main_v17).slice (win0_9.rect t)).set ↔ _
  rw [View.set_slice_whole, Rect.mem_set_unit]
  exact Iff.rfl

/-- Every index of the result array lies in some point's block: token group `(b, t)` in the block of point `(b, t / 16)`. -/
theorem cover (c : Dev nD) (i : S16x128x64x512.Idx) :
    ∃ t : Fin cfg0.N, (cfg0.win 9).flush t = true ∧ i ∈ ((cfg0.win 9).blk t).view.set := by
  have hi0 : (i 0).val < 16 := (i 0).isLt
  have hi1 : (i 1).val < 128 := (i 1).isLt
  have hi2 : (i 2).val < 64 := (i 2).isLt
  have hi3 : (i 3).val < 512 := (i 3).isLt
  obtain ⟨t, ht⟩ := idx_onto ⟨(i 0).val, by omega⟩ ⟨(i 1).val / 16, by omega⟩
  have q0 : win0_9.index t (0 : Fin 4) = (i 0).val := congrFun ht 0
  have q1 : win0_9.index t (1 : Fin 4) = (i 1).val / 16 := congrFun ht 1
  have q2 : win0_9.index t (2 : Fin 4) = 0 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 16 ≤ (i 1).val ∧ (i 1).val < win0_9.index t (1 : Fin 4) * 16 + 16; omega
  | ⟨2, _⟩ => show win0_9.index t (2 : Fin 4) * 64 ≤ (i 2).val ∧ (i 2).val < win0_9.index t (2 : Fin 4) * 64 + 64; omega
  | ⟨3, _⟩ => show win0_9.index t (3 : Fin 4) * 512 ≤ (i 3).val ∧ (i 3).val < win0_9.index t (3 : Fin 4) * 512 + 512; omega

/-- The result array after the run is the whole-array function of the argument arrays. -/
theorem final (c : Dev nD) : (dats m 0 c).arrAt 9 cfg0.N = G m c :=
  (dats m 0 c).arrAt_eq_of_cover 9 (G m c) (fun t _ => flushed_eq m c t) (cover c)

/-! ## The run, read -/

/-- Every weakly fair execution terminates with the result array at the whole-array function of the argument arrays and
    the argument arrays unchanged. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 9).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelIdeal.Whole

end
-- ==== Proof.RefIdx.lean ====
/-
  The index maps of the reference's operations, read at explicit coordinates.

  Each contraction, broadcast and sum of the reference reads its operands at an index computed from the result's
  index (and, for a contraction or a sum, from the summation coordinate). At a result index given by its
  coordinates, each such operand index is again given by coordinates: the equations below say which.
-/
import proofs.«168204_j71880572666182_2_alg».proof.Proof.RefRead
import Idealize.ShloMosaic.Lib.ValueIdx

noncomputable section

namespace Cert.Interact.Ref

open Idealize.ShloMosaic Idealize.ShloMosaic.ValueIdx Cert.ReferenceIdeal Cert.ReferenceIdeal.Read Cert.Interact

variable (b : Fin 16) (t : Fin 128) (n m : Fin 64) (h : Fin 512)

/-! ## Rows times a weight matrix: the left operand's row and the weight's column -/

theorem lidx_v0 (k : Fin 256) : lidx_main_v0 (ix4 b t n h) k = ix4 b t n k :=
  funext fun a => Fin.ext (by match a with | ⟨0, _⟩ => rfl | ⟨1, _⟩ => rfl | ⟨2, _⟩ => rfl | ⟨3, _⟩ => rfl)
theorem ridx_v0 (k : Fin 256) : ridx_main_v0 (ix4 b t n h) k = ix2 k h :=
  funext fun a => Fin.ext (by match a with | ⟨0, _⟩ => rfl | ⟨1, _⟩ => rfl)

theorem lidx_v37 (j : Fin 512) (k : Fin 1024) : lidx_main_v37 (ix4 b t n j) k = ix4 b t n k :=
  funext fun a => Fin.ext (by match a with | ⟨0, _⟩ => rfl | ⟨1, _⟩ => rfl | ⟨2, _⟩ => rfl | ⟨3, _⟩ => rfl)
theorem ridx_v37 (j : Fin 512) (k : Fin 1024) : ridx_main_v37 (ix4 b t n j) k = ix2 k j :=
  funext fun a => Fin.ext (by match a with | ⟨0, _⟩ => rfl | ⟨1, _⟩ => rfl)

theorem lidx_v42 (j k : Fin 512) : lidx_main_v42 (ix4 b t n j) k = ix4 b t n k :=
  funext fun a => Fin.ext (by match a with | ⟨0, _⟩ => rfl | ⟨1, _⟩ => rfl | ⟨2, _⟩ => rfl | ⟨3, _⟩ => rfl)
theorem ridx_v42 (j k : Fin 512) : ridx_main_v42 (ix4 b t n j) k = ix2 k j :=
  funext fun a => Fin.ext (by match a with | ⟨0, _⟩ => rfl | ⟨1, _⟩ => rfl)

/-! ## Query rows against key rows, and weights against value rows, within one token group -/

theorem lidx_v10 (k : Fin 512) : lidx_main_v10 (ix4 b t n m) k = ix4 b t n k :=
  funext fun a => Fin.ext (by match a with | ⟨0, _⟩ => rfl | ⟨1, _⟩ => rfl | ⟨2, _⟩ => rfl | ⟨3, _⟩ => rfl)
theorem ridx_v10 (k : Fin 512) : ridx_main_v10 (ix4 b t n m) k = ix4 b t m k :=
  funext fun a => Fin.ext (by match a with | ⟨0, _⟩ => rfl | ⟨1, _⟩ => rfl | ⟨2, _⟩ => rfl | ⟨3, _⟩ => rfl)

theorem lidx_v22 (k : Fin 64) : lidx_main_v22 (ix4 b t n h) k = ix4 b t n k :=
  funext fun a => Fin.ext (by match a with | ⟨0, _⟩ => rfl | ⟨1, _⟩ => rfl | ⟨2, _⟩ => rfl | ⟨3, _⟩ => rfl)
theorem ridx_v22 (k : Fin 64) : ridx_main_v22 (ix4 b t n h) k = ix4 b t k h :=
  funext fun a => Fin.ext (by match a with | ⟨0, _⟩ => rfl | ⟨1, _⟩ => rfl | ⟨2, _⟩ => rfl | ⟨3, _⟩ => rfl)

/-! ## A row's maximum and a row's sum, spread back over the row -/

theorem idx_v14 (z : Fin 1) : idx_main_v14 (ix4 b t n z) = ix3 b t n :=
  funext fun a => Fin.ext (by match a with | ⟨0, _⟩ => rfl | ⟨1, _⟩ => rfl | ⟨2, _⟩ => rfl)
theorem idx_v15 : idx_main_v15 (ix4 b t n m) = ix4 b t n (0 : Fin 1) :=
  funext fun a => Fin.ext (by match a with | ⟨0, _⟩ => rfl | ⟨1, _⟩ => rfl | ⟨2, _⟩ => rfl | ⟨3, _⟩ => rfl)
theorem idx_v18 (k : Fin 64) : idx_main_v18 (ix3 b t n) k = ix4 b t n k :=
  funext fun a => Fin.ext (by match a with | ⟨0, _⟩ => rfl | ⟨1, _⟩ => rfl | ⟨2, _⟩ => rfl | ⟨3, _⟩ => rfl)
theorem idx_v19 (z : Fin 1) : idx_main_v19 (ix4 b t n z) = ix3 b t n :=
  funext fun a => Fin.ext (by match a with | ⟨0, _⟩ => rfl | ⟨1, _⟩ => rfl | ⟨2, _⟩ => rfl)
theorem idx_v20 : idx_main_v20 (ix4 b t n m) = ix4 b t n (0 : Fin 1) :=
  funext fun a => Fin.ext (by match a with | ⟨0, _⟩ => rfl | ⟨1, _⟩ => rfl | ⟨2, _⟩ => rfl | ⟨3, _⟩ => rfl)

/-! ## A bias spread over every row -/

theorem idx_v38 (z0 z1 z2 : Fin 1) (j : Fin 512) : idx_main_v38 (ix4 z0 z1 z2 j) = ix1 j :=
  funext fun a => Fin.ext (by match a with | ⟨0, _⟩ => rfl)
theorem idx_v39 (j : Fin 512) : idx_main_v39 (ix4 b t n j) = ix4 (0 : Fin 1) (0 : Fin 1) (0 : Fin 1) j :=
  funext fun a => Fin.ext (by match a with | ⟨0, _⟩ => rfl | ⟨1, _⟩ => rfl | ⟨2, _⟩ => rfl | ⟨3, _⟩ => rfl)
theorem idx_v43 (z0 z1 z2 : Fin 1) (j : Fin 512) : idx_main_v43 (ix4 z0 z1 z2 j) = ix1 j :=
  funext fun a => Fin.ext (by match a with | ⟨0, _⟩ => rfl)
theorem idx_v44 (j : Fin 512) : idx_main_v44 (ix4 b t n j) = ix4 (0 : Fin 1) (0 : Fin 1) (0 : Fin 1) j :=
  funext fun a => Fin.ext (by match a with | ⟨0, _⟩ => rfl | ⟨1, _⟩ => rfl | ⟨2, _⟩ => rfl | ⟨3, _⟩ => rfl)

end Cert.Interact.Ref

end
-- ==== Proof.RefProj.lean ====
/-
  The reference's six projections and its two scaled queries, read at a coordinate.

  A 16 x 128 x 64 x 256 array times a 256 x 512 weight, contracted over the last axis of the first and the first
  axis of the second, is at (b, t, n, h) the entry (n, h) of token group (b, t)'s rows times the weight. The scaled
  queries are that entry times the scale 1/16.
-/
import proofs.«168204_j71880572666182_2_alg».proof.Proof.RefIdx
import proofs.«168204_j71880572666182_2_alg».proof.Proof.Spec

noncomputable section

namespace Cert.Interact.Ref

open Idealize.ShloMosaic Idealize.ShloMosaic.ValueIdx Cert.ReferenceIdeal Cert.ReferenceIdeal.Read Cert.Interact

variable [Cert.ReferenceIdeal.Facts]

variable (x : (⟨S16x128x64x256, .f32⟩ : BufTy).Contents (Elt Ideal)) (w : (⟨S256x512, .f32⟩ : BufTy).Contents (Elt Ideal))
  (b : Fin 16) (t : Fin 128) (n : Fin 64) (h : Fin 512)

/-- Token group `(b, t)`'s rows times a weight matrix. -/
abbrev pr : Mat 64 512 := proj (group x b t) (mat w)

/-- The first projection's operation at a coordinate. -/
theorem v0_at : val_main_v0 (F := Ideal) x w (ix4 b t n h) = pr x w b t n h := by
  rw [val_main_v0_apply]
  simp only [lidx_v0, ridx_v0]
  rfl

/-- The other five projections are the same operation on other operands. -/
theorem v3_at : val_main_v3 (F := Ideal) x w (ix4 b t n h) = pr x w b t n h := v0_at x w b t n h
theorem v4_at : val_main_v4 (F := Ideal) x w (ix4 b t n h) = pr x w b t n h := v0_at x w b t n h
theorem v5_at : val_main_v5 (F := Ideal) x w (ix4 b t n h) = pr x w b t n h := v0_at x w b t n h
theorem v8_at : val_main_v8 (F := Ideal) x w (ix4 b t n h) = pr x w b t n h := v0_at x w b t n h
theorem v9_at : val_main_v9 (F := Ideal) x w (ix4 b t n h) = pr x w b t n h := v0_at x w b t n h

/-- The scaled queries of the first stream at a coordinate. -/
theorem v2_at : val_main_v2 (F := Ideal) x w (ix4 b t n h) = scaled (pr x w b t) n h := by
  rw [val_main_v2_apply, v0_at, val_main_v1_apply, val_main_cst_apply]
  rfl

/-- The scaled queries of the second stream: the same operations. -/
theorem v7_at : val_main_v7 (F := Ideal) x w (ix4 b t n h) = scaled (pr x w b t) n h := v2_at x w b t n h

end Cert.Interact.Ref

end
-- ==== Proof.RefAttend.lean ====
/-
  One cross attention of the reference, read at a coordinate.

  Within token group (b, t): the scores are one stream's scaled queries against the other stream's keys; each row's
  maximum is folded from minus infinity (the further maximum with minus infinity changes nothing); the exponentials
  of the shifted scores are divided by their sum taken from zero; the weights so obtained mix the first stream's
  value rows. The second attention of the block is the same operations with the two streams exchanged.
-/
import proofs.«168204_j71880572666182_2_alg».proof.Proof.RefProj
import proofs.«168204_j71880572666182_2_alg».proof.Proof.LibMaxFold

noncomputable section

namespace Cert.Interact.Ref

open Idealize.ShloMosaic Idealize.ShloMosaic.ValueIdx Cert.ReferenceIdeal Cert.ReferenceIdeal.Read Cert.Interact

variable [Cert.ReferenceIdeal.Facts]

variable (x0 x1 : (⟨S16x128x64x256, .f32⟩ : BufTy).Contents (Elt Ideal))
  (wq wk wv : (⟨S256x512, .f32⟩ : BufTy).Contents (Elt Ideal))
  (b : Fin 16) (t : Fin 128) (n m : Fin 64) (h : Fin 512)

/-- The scores of token group `(b, t)`: the scaled queries of `x0` against the keys of `x1`. -/
abbrev sc : Mat 64 64 := scores (scaled (pr x0 wq b t)) (pr x1 wk b t)

theorem v10_at : val_main_v10 (F := Ideal) x0 x1 wq wk (ix4 b t n m) = sc x0 x1 wq wk b t n m := by
  rw [val_main_v10_apply]
  simp only [lidx_v10, ridx_v10, v2_at, v8_at]
  rfl

/-- The source index over `(b, t, n)` with `k` on the last axis. -/
theorem lift_last (hr : S16x128x64x64.Reduces [3] S16x128x64) (k : Fin 64) :
    hr.lift (ix3 b t n) k = ix4 b t n k :=
  funext fun a => Fin.ext (by match a with | ⟨0, _⟩ => rfl | ⟨1, _⟩ => rfl | ⟨2, _⟩ => rfl | ⟨3, _⟩ => rfl)

/-- The row maximum as the reference reduces it. -/
theorem v11_at : val_main_v11 (F := Ideal) x0 x1 wq wk (ix3 b t n) = rowMax (sc x0 x1 wq wk b t) n := by
  unfold val_main_v11 val_main_cst_1
  refine (Cert.Lib.MaxFold.hostMaxRed_apply (val_main_v10 (F := Ideal) x0 x1 wq wk) _ (by decide) _ (ix3 b t n)).trans ?_
  unfold rowMax
  refine congrArg (fun f : Fin 64 → EReal => Finset.fold max ⊥ f Finset.univ) (funext fun k => ?_)
  exact (congrArg (val_main_v10 (F := Ideal) x0 x1 wq wk) (lift_last b t n _ k)).trans (v10_at x0 x1 wq wk b t n k)

/-- The maximum with minus infinity leaves the row maximum as it is. -/
theorem v13_at : val_main_v13 (F := Ideal) x0 x1 wq wk (ix3 b t n) = rowMax (sc x0 x1 wq wk b t) n := by
  rw [val_main_v13_apply, v11_at, val_main_v12_apply, val_main_cst_2_apply]
  show max (Ideal.ofBits .f32 0xFF800000#32) _ = _
  rw [Cert.Lib.MaxFold.ofBits_neg_inf]
  exact max_eq_right bot_le

theorem v15_at : val_main_v15 (F := Ideal) x0 x1 wq wk (ix4 b t n m) = rowMax (sc x0 x1 wq wk b t) n := by
  rw [val_main_v15_apply, idx_v15, val_main_v14_apply, idx_v14]
  exact v13_at x0 x1 wq wk b t n

theorem v17_at : val_main_v17 (F := Ideal) x0 x1 wq wk (ix4 b t n m)
    = Ideal.exp (sc x0 x1 wq wk b t n m - rowMax (sc x0 x1 wq wk b t) n) := by
  rw [val_main_v17_apply, val_main_v16_apply, v10_at, v15_at]
  rfl

theorem v18_at : val_main_v18 (F := Ideal) x0 x1 wq wk (ix3 b t n)
    = zero + ∑ m', Ideal.exp (sc x0 x1 wq wk b t n m' - rowMax (sc x0 x1 wq wk b t) n) := by
  rw [val_main_v18_apply]
  simp only [idx_v18, v17_at]
  rfl

theorem v20_at : val_main_v20 (F := Ideal) x0 x1 wq wk (ix4 b t n m)
    = zero + ∑ m', Ideal.exp (sc x0 x1 wq wk b t n m' - rowMax (sc x0 x1 wq wk b t) n) := by
  rw [val_main_v20_apply, idx_v20, val_main_v19_apply, idx_v19]
  exact v18_at x0 x1 wq wk b t n

/-- The attention weights. -/
theorem v21_at : val_main_v21 (F := Ideal) x0 x1 wq wk (ix4 b t n m) = soft (sc x0 x1 wq wk b t) n m := by
  rw [val_main_v21_apply, v17_at, v20_at]
  rfl

/-- The first attention's aggregate: the weights mix the value rows of `x0`. -/
theorem v22_at : val_main_v22 (F := Ideal) x0 x1 wq wv wk (ix4 b t n h)
    = attend (scaled (pr x0 wq b t)) (pr x1 wk b t) (pr x0 wv b t) n h := by
  rw [val_main_v22_apply]
  simp only [lidx_v22, ridx_v22, v21_at, v4_at]
  rfl

/-- The second attention's aggregate: the same operations with the streams exchanged. -/
theorem v35_at (a0 a1 : (⟨S16x128x64x256, .f32⟩ : BufTy).Contents (Elt Ideal))
    (a3 a5 a7 : (⟨S256x512, .f32⟩ : BufTy).Contents (Elt Ideal)) :
    val_main_v35 (F := Ideal) a0 a1 a3 a5 a7 (ix4 b t n h)
      = attend (scaled (pr a1 a5 b t)) (pr a0 a3 b t) (pr a1 a7 b t) n h :=
  v22_at a1 a0 a5 a3 a7 b t n h

end Cert.Interact.Ref

end
-- ==== Proof.RefHidden.lean ====
/-
  The reference's hidden layer, read at a coordinate.

  The two aggregates are laid side by side along the last axis, 512 columns each, and the 1024 columns so obtained
  meet the 1024 rows of the first weight matrix in one sum. That sum is the sum over the first 512 columns, which
  are the first aggregate's and meet the matrix's upper 512 rows, plus the sum over the last 512, which are the
  second aggregate's and meet its lower 512 rows. The bias is added and the rectifier is the maximum with zero.
-/
import proofs.«168204_j71880572666182_2_alg».proof.Proof.RefAttend
import Idealize.ShloMosaic.Lib.Pipeline.Value

noncomputable section

namespace Cert.Interact.Ref

open Idealize.ShloMosaic Idealize.ShloMosaic.ValueIdx Cert.ReferenceIdeal Cert.ReferenceIdeal.Read Cert.Interact

variable [Cert.ReferenceIdeal.Facts]

variable (a0 a1 : (⟨S16x128x64x256, .f32⟩ : BufTy).Contents (Elt Ideal))
  (a2 a3 a4 a5 a6 a7 : (⟨S256x512, .f32⟩ : BufTy).Contents (Elt Ideal))
  (a8 : (⟨S1024x512, .f32⟩ : BufTy).Contents (Elt Ideal)) (a9 : (⟨S512, .f32⟩ : BufTy).Contents (Elt Ideal))
  (b : Fin 16) (t : Fin 128) (n : Fin 64) (j : Fin 512)

/-- Token group `(b, t)`'s first aggregate: stream 1's queries over stream 2's keys, mixing stream 1's values. -/
abbrev ag1 : Mat 64 512 := attend (scaled (pr a0 a2 b t)) (pr a1 a6 b t) (pr a0 a4 b t)
/-- Token group `(b, t)`'s second aggregate: stream 2's queries over stream 1's keys, mixing stream 2's values. -/
abbrev ag2 : Mat 64 512 := attend (scaled (pr a1 a5 b t)) (pr a0 a3 b t) (pr a1 a7 b t)

/-- A column among the first 512 of the joined array is the first aggregate's. -/
theorem v36_left (f : Fin 512) :
    val_main_v36 (F := Ideal) a0 a1 a2 a3 a4 a5 a6 a7 (ix4 b t n (⟨f.val, by omega⟩ : Fin 1024))
      = val_main_v22 (F := Ideal) a0 a1 a2 a4 a6 (ix4 b t n f) := by
  unfold val_main_v36
  exact concatenate_pair_apply_left (t := S16x128x64x1024) (s₁ := S16x128x64x512) (s₂ := S16x128x64x512) (3 : Fin 4) _ _ _
    (ix4 b t n (⟨f.val, by omega⟩ : Fin 1024)) rfl (ix4 b t n f)
    (fun c => match c with | ⟨0, _⟩ => rfl | ⟨1, _⟩ => rfl | ⟨2, _⟩ => rfl | ⟨3, _⟩ => rfl)

/-- A column among the last 512 of the joined array is the second aggregate's, 512 columns earlier. -/
theorem v36_right (f : Fin 512) :
    val_main_v36 (F := Ideal) a0 a1 a2 a3 a4 a5 a6 a7 (ix4 b t n (⟨512 + f.val, by omega⟩ : Fin 1024))
      = val_main_v35 (F := Ideal) a0 a1 a3 a5 a7 (ix4 b t n f) := by
  unfold val_main_v36
  exact concatenate_pair_apply_right (t := S16x128x64x1024) (s₁ := S16x128x64x512) (s₂ := S16x128x64x512) (3 : Fin 4) _ _ _
    (ix4 b t n (⟨512 + f.val, by omega⟩ : Fin 1024)) rfl rfl (ix4 b t n f)
    (fun c hc => match c, hc with
      | ⟨0, _⟩, _ => rfl | ⟨1, _⟩, _ => rfl | ⟨2, _⟩, _ => rfl | ⟨3, _⟩, hc => absurd rfl hc)
    (by show f.val + 512 = 512 + f.val; omega)

/-- The joined aggregates against the first weight matrix: two sums of 512 terms. -/
theorem v37_at : val_main_v37 (F := Ideal) a0 a1 a2 a3 a4 a5 a6 a7 a8 (ix4 b t n j)
    = (∑ f, ag1 a0 a1 a2 a4 a6 b t n f * top (mat a8) f j) + (∑ f, ag2 a0 a1 a3 a5 a7 b t n f * bottom (mat a8) f j) := by
  rw [val_main_v37_apply]
  simp only [lidx_v37, ridx_v37]
  refine (Fin.sum_univ_add (a := 512) (b := 512)
    (fun k : Fin 1024 => val_main_v36 (F := Ideal) a0 a1 a2 a3 a4 a5 a6 a7 (ix4 b t n k) * a8 (ix2 k j))).trans ?_
  refine congrArg₂ (· + ·) (Finset.sum_congr rfl fun f _ => ?_) (Finset.sum_congr rfl fun f _ => ?_)
  · show val_main_v36 (F := Ideal) a0 a1 a2 a3 a4 a5 a6 a7 (ix4 b t n (⟨f.val, by omega⟩ : Fin 1024)) * top (mat a8) f j = _
    rw [v36_left, v22_at]
  · show val_main_v36 (F := Ideal) a0 a1 a2 a3 a4 a5 a6 a7 (ix4 b t n (⟨512 + f.val, by omega⟩ : Fin 1024)) * bottom (mat a8) f j = _
    rw [v36_right, v35_at]

/-- With the bias. -/
theorem v40_at : val_main_v40 (F := Ideal) a0 a1 a2 a3 a4 a5 a6 a7 a8 a9 (ix4 b t n j)
    = ((∑ f, ag1 a0 a1 a2 a4 a6 b t n f * top (mat a8) f j) + (∑ f, ag2 a0 a1 a3 a5 a7 b t n f * bottom (mat a8) f j))
        + vec a9 j := by
  rw [val_main_v40_apply, v37_at, val_main_v39_apply, idx_v39, val_main_v38_apply, idx_v38]
  rfl

/-- The hidden layer. -/
theorem v41_at : val_main_v41 (F := Ideal) a0 a1 a2 a3 a4 a5 a6 a7 a8 a9 (ix4 b t n j)
    = hidden (ag1 a0 a1 a2 a4 a6 b t) (ag2 a0 a1 a3 a5 a7 b t) (top (mat a8)) (bottom (mat a8)) (vec a9) n j := by
  rw [val_main_v41_apply, v40_at, val_main_call0_v0_apply, val_main_call0_cst_apply]
  rfl

end Cert.Interact.Ref

end
-- ==== Proof.RefValue.lean ====
/-
  The reference's result, read at a coordinate, is the block's mathematics.

  The hidden layer goes through the second weight matrix and its bias; entry (b, t, n, k) of the result is entry
  (n, k) of token group (b, t)'s result, with the query products scaled after the product: the reference's own order.
-/
import proofs.«168204_j71880572666182_2_alg».proof.Proof.RefHidden

noncomputable section

namespace Cert.Interact.Ref

open Idealize.ShloMosaic Idealize.ShloMosaic.ValueIdx Cert.ReferenceIdeal Cert.ReferenceIdeal.Read Cert.Interact

variable [Cert.ReferenceIdeal.Facts]

variable (a0 a1 : (⟨S16x128x64x256, .f32⟩ : BufTy).Contents (Elt Ideal))
  (a2 a3 a4 a5 a6 a7 : (⟨S256x512, .f32⟩ : BufTy).Contents (Elt Ideal))
  (a8 : (⟨S1024x512, .f32⟩ : BufTy).Contents (Elt Ideal)) (a9 : (⟨S512, .f32⟩ : BufTy).Contents (Elt Ideal))
  (a10 : (⟨S512x512, .f32⟩ : BufTy).Contents (Elt Ideal)) (a11 : (⟨S512, .f32⟩ : BufTy).Contents (Elt Ideal))
  (b : Fin 16) (t : Fin 128) (n : Fin 64) (k : Fin 512)

/-- The hidden layer against the second weight matrix. -/
theorem v42_at : val_main_v42 (F := Ideal) a0 a1 a2 a3 a4 a5 a6 a7 a8 a9 a10 (ix4 b t n k)
    = ∑ j, hidden (ag1 a0 a1 a2 a4 a6 b t) (ag2 a0 a1 a3 a5 a7 b t) (top (mat a8)) (bottom (mat a8)) (vec a9) n j
        * mat a10 j k := by
  rw [val_main_v42_apply]
  simp only [lidx_v42, ridx_v42, v41_at]
  rfl

/-- The result at a coordinate. -/
theorem v45_at : val_main_v45 (F := Ideal) a0 a1 a2 a3 a4 a5 a6 a7 a8 a9 a10 a11 (ix4 b t n k)
    = affine (hidden (ag1 a0 a1 a2 a4 a6 b t) (ag2 a0 a1 a3 a5 a7 b t) (top (mat a8)) (bottom (mat a8)) (vec a9))
        (mat a10) (vec a11) n k := by
  rw [val_main_v45_apply, v42_at, val_main_v44_apply, idx_v44, val_main_v43_apply, idx_v43]
  rfl

end Cert.Interact.Ref

open Idealize.ShloMosaic Idealize.ShloMosaic.ValueIdx Cert.ReferenceIdeal Cert.Interact in
theorem Cert.Interact.Ref.ref_eq [Cert.ReferenceIdeal.Facts]
    (a0 a1 : (⟨S16x128x64x256, .f32⟩ : BufTy).Contents (Elt Ideal)) (a2 a3 a4 a5 a6 a7 : (⟨S256x512, .f32⟩ : BufTy).Contents (Elt Ideal))
    (a8 : (⟨S1024x512, .f32⟩ : BufTy).Contents (Elt Ideal)) (a9 : (⟨S512, .f32⟩ : BufTy).Contents (Elt Ideal))
    (a10 : (⟨S512x512, .f32⟩ : BufTy).Contents (Elt Ideal)) (a11 : (⟨S512, .f32⟩ : BufTy).Contents (Elt Ideal)) :
    Cert.ReferenceIdeal.Read.val_main_v45 (F := Ideal) a0 a1 a2 a3 a4 a5 a6 a7 a8 a9 a10 a11
      = wholeQ a0 a1 a2 a3 a4 a5 a6 a7 a8 a9 a10 a11 := by
  funext i
  obtain ⟨b, t, n, k, rfl⟩ : ∃ (b : Fin 16) (t : Fin 128) (n : Fin 64) (k : Fin 512), i = ix4 b t n k :=
    ⟨i 0, i 1, i 2, i 3, eq_ix4 i⟩
  rw [wholeQ_apply, Cert.Interact.Ref.v45_at]
  rfl

end
-- ==== Proof.lean ====
/-
  The certificate of the two-stream cross-attention block against its reference.

  The three frames. The two kernel programs (the word-level one and its idealization: one text read at two instances) are
  nineteen host operations and one region whose body loads its nine input blocks whole and stores its result block whole;
  their frames are the launch theorem applied to that body's triple (FrameKernel, FrameKernelIdeal). The reference is a
  straight line of host operations; its frame is its run with the result dropped.

  `preserves`: the ideal pass rewrote nothing, so there is nothing to state.

  `algebraic`: on the extended reals both programs end with the result array at ONE function of the twelve argument
  arrays: entry (b, t, n, k) is entry (n, k) of the cross-attention block of token group (b, t) (Spec). The kernel computes
  it with the query weights scaled before the projection (KernelWhole: what each grid point writes back, block by block,
  and the blocks tile the array), the reference with the projected queries scaled afterwards (RefValue); the two agree
  because the scale is a nonnegative real number, which distributes over every sum of extended reals
  (Spec, `wholeW_eq_wholeQ`). Nothing else is rearranged, and the precondition is never opened.
-/
import proofs.«168204_j71880572666182_2_alg».proof.Defs
import proofs.«168204_j71880572666182_2_alg».proof.Proof.Gen.Kernel
import proofs.«168204_j71880572666182_2_alg».proof.Proof.Gen.KernelIdeal
import proofs.«168204_j71880572666182_2_alg».proof.Proof.Gen.ReferenceIdeal
import proofs.«168204_j71880572666182_2_alg».proof.Proof.Gen.Pre_finite_inputs
import proofs.«168204_j71880572666182_2_alg».proof.Proof.FrameKernel
import proofs.«168204_j71880572666182_2_alg».proof.Proof.KernelWhole
import proofs.«168204_j71880572666182_2_alg».proof.Proof.RefRun
import proofs.«168204_j71880572666182_2_alg».proof.Proof.RefRead
import proofs.«168204_j71880572666182_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the whole-array function of the arguments: the kernel's run read block by
    block, the reference's run read operation by operation, and the two spellings of the scaled queries agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v45_eq, Cert.Interact.Ref.ref_eq, h0, h1, h2, h3, h4, h5, h6, h7, h8, h9, h10, h11,
    ← Cert.Interact.wholeW_eq_wholeQ]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
